-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1300000 : Shape := ⟨1, ![1300000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S64 .f32) (main_arg5 : FVec F S64x32 .f32) (main_arg6 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg5
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S50000x64 .f32) (main_arg1 : FVec F S64x64 .f32) (main_arg2 : FVec F S64 .f32) (main_arg3 : FVec F S64x64 .f32) (main_arg4 : FVec F S64 .f32) (main_arg5 : FVec F S64x32 .f32) (main_arg6 : FVec F S32 .f32) (main_arg7 : IVec S1300000 32) (main_arg8 : IVec S1300000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S50000x64 : Shape := ⟨2, ![50000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩
abbrev S5000x64 : Shape := ⟨2, ![5000, 64]⟩
abbrev S1x32 : Shape := ⟨2, ![1, 32]⟩
abbrev S50000x32 : Shape := ⟨2, ![50000, 32]⟩
abbrev S5000x32 : Shape := ⟨2, ![5000, 32]⟩
abbrev S5000 : Shape := ⟨1, ![5000]⟩
abbrev S5000x1 : Shape := ⟨2, ![5000, 1]⟩

abbrev nBuf : Space → Nat
  | .hbm => 54
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S1300000, .i32⟩
  | .hbm, ⟨8, _⟩ => ⟨S1300000, .i32⟩
  | .hbm, ⟨9, _⟩ => ⟨S_, .i32⟩
  | .hbm, ⟨10, _⟩ => ⟨S1300000, .i32⟩
  | .hbm, ⟨11, _⟩ => ⟨S1300000, .i1⟩
  | .hbm, ⟨12, _⟩ => ⟨S_, .i32⟩
  | .hbm, ⟨13, _⟩ => ⟨S1300000, .i32⟩
  | .hbm, ⟨14, _⟩ => ⟨S1300000, .i32⟩
  | .hbm, ⟨15, _⟩ => ⟨S1300000, .i32⟩
  | .hbm, ⟨16, _⟩ => ⟨S1300000x1, .i32⟩
  | .hbm, ⟨17, _⟩ => ⟨S1300000x64, .f32⟩
  | .hbm, ⟨18, _⟩ => ⟨S_, .f32⟩
  | .hbm, ⟨19, _⟩ => ⟨S50000x64, .f32⟩
  | .hbm, ⟨20, _⟩ => ⟨S1300000x1, .i32⟩
  | .hbm, ⟨21, _⟩ => ⟨S50000x64, .f32⟩
  | .hbm, ⟨22, _⟩ => ⟨S1x64, .f32⟩
  | .hbm, ⟨23, _⟩ => ⟨S50000x64, .f32⟩
  | .hbm, ⟨24, _⟩ => ⟨S_, .i32⟩
  | .hbm, ⟨25, _⟩ => ⟨S1300000, .i32⟩
  | .hbm, ⟨26, _⟩ => ⟨S1300000, .i1⟩
  | .hbm, ⟨27, _⟩ => ⟨S_, .i32⟩
  | .hbm, ⟨28, _⟩ => ⟨S1300000, .i32⟩
  | .hbm, ⟨29, _⟩ => ⟨S1300000, .i32⟩
  | .hbm, ⟨30, _⟩ => ⟨S1300000, .i32⟩
  | .hbm, ⟨31, _⟩ => ⟨S1300000x1, .i32⟩
  | .hbm, ⟨32, _⟩ => ⟨S1300000x64, .f32⟩
  | .hbm, ⟨33, _⟩ => ⟨S_, .f32⟩
  | .hbm, ⟨34, _⟩ => ⟨S50000x64, .f32⟩
  | .hbm, ⟨35, _⟩ => ⟨S1300000x1, .i32⟩
  | .hbm, ⟨36, _⟩ => ⟨S50000x64, .f32⟩
  | .hbm, ⟨37, _⟩ => ⟨S1x64, .f32⟩
  | .hbm, ⟨38, _⟩ => ⟨S50000x64, .f32⟩
  | .hbm, ⟨39, _⟩ => ⟨S_, .i32⟩
  | .hbm, ⟨40, _⟩ => ⟨S1300000, .i32⟩
  | .hbm, ⟨41, _⟩ => ⟨S1300000, .i1⟩
  | .hbm, ⟨42, _⟩ => ⟨S_, .i32⟩
  | .hbm, ⟨43, _⟩ => ⟨S1300000, .i32⟩
  | .hbm, ⟨44, _⟩ => ⟨S1300000, .i32⟩
  | .hbm, ⟨45, _⟩ => ⟨S1300000, .i32⟩
  | .hbm, ⟨46, _⟩ => ⟨S1300000x1, .i32⟩
  | .hbm, ⟨47, _⟩ => ⟨S1300000x64, .f32⟩
  | .hbm, ⟨48, _⟩ => ⟨S_, .f32⟩
  | .hbm, ⟨49, _⟩ => ⟨S50000x64, .f32⟩
  | .hbm, ⟨50, _⟩ => ⟨S1300000x1, .i32⟩
  | .hbm, ⟨51, _⟩ => ⟨S50000x64, .f32⟩
  | .hbm, ⟨52, _⟩ => ⟨S1x32, .f32⟩
  | .hbm, ⟨53, _⟩ => ⟨S50000x32, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x32, .f32⟩
  | .local _ .vmem, ⟨15, _⟩ => ⟨S1x32, .f32⟩
  | .local _ .vmem, ⟨16, _⟩ => ⟨S5000x32, .f32⟩
  | .local _ .vmem, ⟨17, _⟩ => ⟨S5000x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1300000 : S_.BroadcastsInDim S1300000 (![] : Fin 0 → Fin S1300000.rank)
  bcast_S1300000_S1300000x1_0 : S1300000.BroadcastsInDim S1300000x1 (![0] : Fin 1 → Fin S1300000x1.rank)
  bcast_S_S50000x64 : S_.BroadcastsInDim S50000x64 (![] : Fin 0 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  reduces_S5000x32_S5000 : S5000x32.Reduces [1] S5000
  shapeCasts_S5000_S5000x1 : S5000.ShapeCasts S5000x1
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  gather_S50000x64_S1300000x1_S1300000x64_1_0_n_n_0_1_164_wf : GatherDims.WF S50000x64 S1300000x1 S1300000x64 [1] [0] [] [0] [] 1 ![1, 64]
  scatter_S50000x64_S1300000x1_S1300000x64_1_0_0_1_wf : ScatterDims.WF S50000x64 S1300000x1 S1300000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S50000x32.size a
  hwx2_3 : ∀ i : grid2.Coords, EltTy.bits .f32 = 32 ∨ (Rect.block (s := S50000x32) S5000x32.size (cc2_transform_3 i) (hinb2_3 i)).WholeWords (EltTy.packing .f32)

variable [Facts₀]

def gather_S50000x64_S1300000x1_S1300000x64_1_0_n_n_0_1_164 : GatherDims S50000x64 S1300000x1 S1300000x64 where
  offsetDims := [1]
  collapsedSliceDims := [0]
  operandBatchingDims := []
  startIndicesBatchingDims := []
  startIndexMap := [0]
  indexVectorDim := 1
  sliceSizes := ![1, 64]
  wf := gather_S50000x64_S1300000x1_S1300000x64_1_0_n_n_0_1_164_wf
def scatter_S50000x64_S1300000x1_S1300000x64_1_0_0_1 : ScatterDims S50000x64 S1300000x1 S1300000x64 where
  updateWindowDims := [1]
  insertedWindowDims := [0]
  scatterDimsToOperandDims := [0]
  indexVectorDim := 1
  wf := scatter_S50000x64_S1300000x1_S1300000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v9) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v33) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S5000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x64 : Shape := ⟨2, ![50000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩
abbrev S50000x32 : Shape := ⟨2, ![50000, 32]⟩
abbrev S1x32 : Shape := ⟨2, ![1, 32]⟩
abbrev S50000 : Shape := ⟨1, ![50000]⟩
abbrev S50000x1 : Shape := ⟨2, ![50000, 1]⟩

abbrev nBuf : Space → Nat
  | .hbm => 81
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S1300000, .i32⟩
  | .hbm, ⟨8, _⟩ => ⟨S1300000, .i32⟩
  | .hbm, ⟨9, _⟩ => ⟨S_, .i32⟩
  | .hbm, ⟨10, _⟩ => ⟨S1300000, .i32⟩
  | .hbm, ⟨11, _⟩ => ⟨S1300000, .i1⟩
  | .hbm, ⟨12, _⟩ => ⟨S_, .i32⟩
  | .hbm, ⟨13, _⟩ => ⟨S1300000, .i32⟩
  | .hbm, ⟨14, _⟩ => ⟨S1300000, .i32⟩
  | .hbm, ⟨15, _⟩ => ⟨S1300000, .i32⟩
  | .hbm, ⟨16, _⟩ => ⟨S1300000x1, .i32⟩
  | .hbm, ⟨17, _⟩ => ⟨S1300000x64, .f32⟩
  | .hbm, ⟨18, _⟩ => ⟨S_, .f32⟩
  | .hbm, ⟨19, _⟩ => ⟨S50000x64, .f32⟩
  | .hbm, ⟨20, _⟩ => ⟨S1300000x1, .i32⟩
  | .hbm, ⟨21, _⟩ => ⟨S50000x64, .f32⟩
  | .hbm, ⟨22, _⟩ => ⟨S50000x64, .f32⟩
  | .hbm, ⟨23, _⟩ => ⟨S1x64, .f32⟩
  | .hbm, ⟨24, _⟩ => ⟨S50000x64, .f32⟩
  | .hbm, ⟨25, _⟩ => ⟨S50000x64, .f32⟩
  | .hbm, ⟨26, _⟩ => ⟨S_, .f32⟩
  | .hbm, ⟨27, _⟩ => ⟨S50000x64, .f32⟩
  | .hbm, ⟨28, _⟩ => ⟨S50000x64, .f32⟩
  | .hbm, ⟨29, _⟩ => ⟨S_, .i32⟩
  | .hbm, ⟨30, _⟩ => ⟨S1300000, .i32⟩
  | .hbm, ⟨31, _⟩ => ⟨S1300000, .i1⟩
  | .hbm, ⟨32, _⟩ => ⟨S_, .i32⟩
  | .hbm, ⟨33, _⟩ => ⟨S1300000, .i32⟩
  | .hbm, ⟨34, _⟩ => ⟨S1300000, .i32⟩
  | .hbm, ⟨35, _⟩ => ⟨S1300000, .i32⟩
  | .hbm, ⟨36, _⟩ => ⟨S1300000x1, .i32⟩
  | .hbm, ⟨37, _⟩ => ⟨S1300000x64, .f32⟩
  | .hbm, ⟨38, _⟩ => ⟨S_, .f32⟩
  | .hbm, ⟨39, _⟩ => ⟨S50000x64, .f32⟩
  | .hbm, ⟨40, _⟩ => ⟨S1300000x1, .i32⟩
  | .hbm, ⟨41, _⟩ => ⟨S50000x64, .f32⟩
  | .hbm, ⟨42, _⟩ => ⟨S50000x64, .f32⟩
  | .hbm, ⟨43, _⟩ => ⟨S1x64, .f32⟩
  | .hbm, ⟨44, _⟩ => ⟨S50000x64, .f32⟩
  | .hbm, ⟨45, _⟩ => ⟨S50000x64, .f32⟩
  | .hbm, ⟨46, _⟩ => ⟨S_, .f32⟩
  | .hbm, ⟨47, _⟩ => ⟨S50000x64, .f32⟩
  | .hbm, ⟨48, _⟩ => ⟨S50000x64, .f32⟩
  | .hbm, ⟨49, _⟩ => ⟨S_, .i32⟩
  | .hbm, ⟨50, _⟩ => ⟨S1300000, .i32⟩
  | .hbm, ⟨51, _⟩ => ⟨S1300000, .i1⟩
  | .hbm, ⟨52, _⟩ => ⟨S_, .i32⟩
  | .hbm, ⟨53, _⟩ => ⟨S1300000, .i32⟩
  | .hbm, ⟨54, _⟩ => ⟨S1300000, .i32⟩
  | .hbm, ⟨55, _⟩ => ⟨S1300000, .i32⟩
  | .hbm, ⟨56, _⟩ => ⟨S1300000x1, .i32⟩
  | .hbm, ⟨57, _⟩ => ⟨S1300000x64, .f32⟩
  | .hbm, ⟨58, _⟩ => ⟨S_, .f32⟩
  | .hbm, ⟨59, _⟩ => ⟨S50000x64, .f32⟩
  | .hbm, ⟨60, _⟩ => ⟨S1300000x1, .i32⟩
  | .hbm, ⟨61, _⟩ => ⟨S50000x64, .f32⟩
  | .hbm, ⟨62, _⟩ => ⟨S50000x32, .f32⟩
  | .hbm, ⟨63, _⟩ => ⟨S1x32, .f32⟩
  | .hbm, ⟨64, _⟩ => ⟨S50000x32, .f32⟩
  | .hbm, ⟨65, _⟩ => ⟨S50000x32, .f32⟩
  | .hbm, ⟨66, _⟩ => ⟨S_, .f32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x32, .f32⟩
  | .hbm, ⟨73, _⟩ => ⟨S50000x32, .f32⟩
  | .hbm, ⟨74, _⟩ => ⟨S50000x32, .f32⟩
  | .hbm, ⟨75, _⟩ => ⟨S_, .f32⟩
  | .hbm, ⟨76, _⟩ => ⟨S50000, .f32⟩
  | .hbm, ⟨77, _⟩ => ⟨S50000x1, .f32⟩
  | .hbm, ⟨78, _⟩ => ⟨S50000x1, .f32⟩
  | .hbm, ⟨79, _⟩ => ⟨S50000x32, .f32⟩
  | .hbm, ⟨80, _⟩ => ⟨S50000x32, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_cst : Ref sig .tc := ⟨.hbm, 26, rfl⟩
abbrev main_call0_v0 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call1_cst : Ref sig .tc := ⟨.hbm, 46, rfl⟩
abbrev main_call1_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call2_cst : Ref sig .tc := ⟨.hbm, 66, rfl⟩
abbrev main_call2_v0 : Ref sig .tc := ⟨.hbm, 67, rfl⟩
abbrev main_call2_cst_0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_cst_1 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_v44 : Ref sig .tc := ⟨.hbm, 80, rfl⟩

abbrev nD : Nat := 1
abbrev τ : Topo := Topo.v7x

variable {F : FTy → Type} [FloatOps F]

class Facts₀ : Prop where
  bcast_S_S1300000 : S_.BroadcastsInDim S1300000 (![] : Fin 0 → Fin S1300000.rank)
  bcast_S1300000_S1300000x1_0 : S1300000.BroadcastsInDim S1300000x1 (![0] : Fin 1 → Fin S1300000x1.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  reducesTo_S50000x32_S50000_d1 : S50000x32.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  gather_S50000x64_S1300000x1_S1300000x64_1_0_n_n_0_1_164_wf : GatherDims.WF S50000x64 S1300000x1 S1300000x64 [1] [0] [] [0] [] 1 ![1, 64]
  scatter_S50000x64_S1300000x1_S1300000x64_1_0_0_1_wf : ScatterDims.WF S50000x64 S1300000x1 S1300000x64 [1] [0] [0] 1
  dot_S50000x64_S64x64_S50000x64_1_0_0_1_n_n_wf : DotDims.WF S50000x64 S64x64 S50000x64 [1] [0] [0] [1] [] []
  dot_S50000x64_S64x32_S50000x32_1_0_0_1_n_n_wf : DotDims.WF S50000x64 S64x32 S50000x32 [1] [0] [0] [1] [] []

variable [Facts₀]

def gather_S50000x64_S1300000x1_S1300000x64_1_0_n_n_0_1_164 : GatherDims S50000x64 S1300000x1 S1300000x64 where
  offsetDims := [1]
  collapsedSliceDims := [0]
  operandBatchingDims := []
  startIndicesBatchingDims := []
  startIndexMap := [0]
  indexVectorDim := 1
  sliceSizes := ![1, 64]
  wf := gather_S50000x64_S1300000x1_S1300000x64_1_0_n_n_0_1_164_wf
def scatter_S50000x64_S1300000x1_S1300000x64_1_0_0_1 : ScatterDims S50000x64 S1300000x1 S1300000x64 where
  updateWindowDims := [1]
  insertedWindowDims := [0]
  scatterDimsToOperandDims := [0]
  indexVectorDim := 1
  wf := scatter_S50000x64_S1300000x1_S1300000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf

class Facts : Prop extends Facts₀ where

variable [Facts]
-- ==== Proof.KernelRun.lean ====
/-
  The idealized kernel program's run with every buffer named.

  @main is six segments: a stretch of host operations, a kernel region, and so on three times over.  The buffer
  contents at the segment boundaries are a fold from the launch memory (W0 .. W6 of the frame module): a host stretch
  applies its operations, a region replaces its output array by what its write-backs leave and keeps every other
  buffer.  The frame module launches the segments and reads the last boundary back, keeping only the argument buffers
  in its conclusion.  Here the same launch is read back at EVERY buffer the thread state holds, so that the result
  buffer too is known: it ends at W6.  The arguments end as launched, by the frame module's walk back through the fold.
-/
import proofs.«159971_j35450660062089_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every buffer the thread state holds ends
    at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same run with the result buffer and the arguments named: the result at the last boundary's contents, each
    argument as launched. -/
theorem run_result : θ_run defs (onTc (τ := τ) (main (F := F))) ⟨m, fun _ => 0, ρ⟩ (fun r => ∀ c : Dev nD,
      r.2.mem ((c.tc : Thread nD τ).loc main_v35) = W6 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨h c _ (mem_uc main_v35 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)
    (run_all m ρ)

end Cert.KernelIdeal.Named

end
-- ==== Proof.LibDense.lean ====
/-
  Dense layers read as functions of rows, at the ideal values.

  A dense layer of an MLP takes an [A, K] matrix of rows, a [K, N] weight matrix and an [N] bias to the [A, N]
  matrix whose entry (r, n) is  sum_k x(r, k) * w(k, n) + b(n).  Entry (r, n) depends on row r of x only, so the
  layer applied to a block of rows is the block of the layer applied to all rows; that is what lets a kernel
  that walks over row blocks be compared with a reference that multiplies whole matrices.

  Two spellings of the layer are read to this one function: the kernel's (the operands narrowed to bf16, which
  changes nothing at the ideal values; a matrix product accumulated into a zero splat; the bias cast to one row
  and broadcast down the rows) and the host's (a dot_general; the bias broadcast to one row, then down the rows).
  Likewise the tanh form of gelu,  x * (1/2 * (1 + tanh (c1 * (x + c0 * x^3)))),  is read pointwise in the
  kernel's spelling (x^3 as x * (x * x), splatted scalars) and the host's (x^3 as (x * x) * x, broadcast
  constants); the two cubes agree because multiplication of extended reals is commutative.  All of it is generic in the extents.
-/
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibDense

open Idealize.ShloMosaic Idealize.ShloMosaic.ValueIdx

/-! ## The contraction of a plain matrix product as a sum over the shared axis -/

/-- For the plain dimension numbers (rows x contraction times contraction x columns) the contraction index is
    its one coordinate, and the operand indices at output (r, n) and contraction k are (r, k) and (k, n). -/
theorem plain_sum (A K N : Nat) (l : (⟨2, ![A, K]⟩ : Shape).Idx → EReal) (r : (⟨2, ![K, N]⟩ : Shape).Idx → EReal)
    (j : (⟨2, ![A, N]⟩ : Shape).Idx) :
    ∑ k : (DotDims.plain A K N).contr.Idx, l ((DotDims.plain A K N).lhsIdx j k) * r ((DotDims.plain A K N).rhsIdx j k)
      = ∑ k : Fin K, l (ix2 (j 0 : Fin A) k) * r (ix2 k (j 1 : Fin N)) := by
  rw [← Equiv.sum_comp (contrEquiv1 (DotDims.plain A K N) K rfl rfl).symm]
  refine Finset.sum_congr rfl fun k _ => ?_
  have hk := contrEquiv1_symm_val (DotDims.plain A K N) K rfl rfl k
  have el : (DotDims.plain A K N).lhsIdx j ((contrEquiv1 (DotDims.plain A K N) K rfl rfl).symm k) = ix2 (j 0 : Fin A) k := by
    funext a
    match a with
    | ⟨0, _⟩ => rfl
    | ⟨1, _⟩ => exact Fin.ext hk
  have er : (DotDims.plain A K N).rhsIdx j ((contrEquiv1 (DotDims.plain A K N) K rfl rfl).symm k) = ix2 k (j 1 : Fin N) := by
    funext a
    match a with
    | ⟨0, _⟩ => exact Fin.ext hk
    | ⟨1, _⟩ => rfl
  exact congrArg₂ (· * ·) (congrArg l el) (congrArg r er)

/-! ## The bias laid along every row -/

/-- The kernel's spelling: the bias cast to one row and broadcast down the rows reads the bias at the column. -/
theorem bias_rows_kernel {A N : Nat} {α : Type} (b : (⟨1, ![N]⟩ : Shape).Idx → α)
    (h1 : (⟨1, ![N]⟩ : Shape).ShapeCasts ⟨2, ![1, N]⟩) (hb : (⟨2, ![1, N]⟩ : Shape).Broadcasts ⟨2, ![A, N]⟩)
    (i : (⟨2, ![A, N]⟩ : Shape).Idx) :
    broadcastTo ⟨2, ![A, N]⟩ (shapeCast ⟨2, ![1, N]⟩ b h1) hb i = b (ix1 (i 1 : Fin N)) := by
  have e1 := broadcastTo_apply (shapeCast ⟨2, ![1, N]⟩ b h1) hb i (ix2 (0 : Fin 1) (i 1 : Fin N)) (by
    intro a
    match a with
    | ⟨0, _⟩ => rfl
    | ⟨1, _⟩ =>
      show (i 1).val = if N = 1 then 0 else (i 1).val
      split
      · have := (i 1).isLt; have e : (i 1).val < N := this; omega
      · rfl)
  have e2 := shapeCast_apply b h1 (ix2 (0 : Fin 1) (i 1 : Fin N)) (ix1 (i 1 : Fin N)) (by
    rw [Shape.rowMajor_val_two, Shape.rowMajor_val_one]; show (i 1).val = 0 * N + (i 1).val; omega)
  exact e1.trans e2

/-- The host's spelling: the bias broadcast to one row along axis 1, then down the rows, reads the bias at the column. -/
theorem bias_rows_host_ix {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1]) (p : Fin A) (q : Fin N) :
    broadcastInDim ⟨2, ![A, N]⟩ ![0, 1] hbc (broadcastInDim ⟨2, ![1, N]⟩ ![1] hd b) (ix2 p q) = b (ix1 q) := by
  rw [broadcastInDim_oneRow_apply hbc _ p q]
  refine broadcastInDim_apply ![1] hd b (ix2 (0 : Fin 1) q) (ix1 q) ?_
  intro a
  match a with
  | ⟨0, _⟩ =>
    show q.val = if N = 1 then 0 else q.val
    split
    · have := q.isLt; omega
    · rfl

/-- The same at any index. -/
theorem bias_rows_host {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1])
    (i : (⟨2, ![A, N]⟩ : Shape).Idx) :
    broadcastInDim ⟨2, ![A, N]⟩ ![0, 1] hbc (broadcastInDim ⟨2, ![1, N]⟩ ![1] hd b) i = b (ix1 (i 1 : Fin N)) := by
  obtain ⟨p, q, rfl⟩ : ∃ (p : Fin A) (q : Fin N), i = ix2 p q := ⟨i 0, i 1, eq_ix2 i⟩
  exact bias_rows_host_ix b hd hbc p q

/-! ## The dense layer -/

/-- The dense layer on rows: entry (r, n) is the sum over k of x(r, k) * w(k, n), plus b(n). -/
def dense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal :=
  fun j => (∑ k : Fin K, x (ix2 (j 0 : Fin A) k) * w (ix2 k (j 1 : Fin N))) + b (ix1 (j 1 : Fin N))

/-- The kernel's layer (bf16 operands, zero accumulator, bias cast and broadcast) is the dense layer. -/
theorem dense_kernel {A K N : Nat} (x : FVec Ideal ⟨2, ![A, K]⟩ .f32) (w : FVec Ideal ⟨2, ![K, N]⟩ .f32)
    (b : FVec Ideal ⟨1, ![N]⟩ .f32) (hlt : FTy.bits .bf16 < FTy.bits .f32)
    (h1 : (⟨1, ![N]⟩ : Shape).ShapeCasts ⟨2, ![1, N]⟩) (hb : (⟨2, ![1, N]⟩ : Shape).Broadcasts ⟨2, ![A, N]⟩) :
    addf (matmul (DotDims.plain A K N) none (truncf .bf16 x hlt) (truncf .bf16 w hlt) (constant ⟨2, ![A, N]⟩ .f32 0x00000000#32))
      (broadcastTo ⟨2, ![A, N]⟩ (shapeCast ⟨2, ![1, N]⟩ b h1) hb) = dense A K N x w b := by
  funext j
  rw [addf_apply, bias_rows_kernel b h1 hb j]
  refine congrArg (· + b (ix1 (j 1 : Fin N))) ?_
  refine (Ideal.matmul_constant_zero_apply (DotDims.plain A K N) none (truncf .bf16 x hlt) (truncf .bf16 w hlt) j).trans ?_
  exact plain_sum A K N x w j

/-- The host's layer (dot_general, bias broadcast twice) is the dense layer. -/
theorem dense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1]) :
    addf (Host.dotGeneral (DotDims.plain A K N) none x w)
      (broadcastInDim ⟨2, ![A, N]⟩ ![0, 1] hbc (broadcastInDim ⟨2, ![1, N]⟩ ![1] hd b)) = dense A K N x w b := by
  funext j
  rw [addf_apply, bias_rows_host b hd hbc j]
  refine congrArg (· + b (ix1 (j 1 : Fin N))) ?_
  refine (Ideal.dotGeneral_apply (DotDims.plain A K N) none _ x w j).trans ?_
  exact plain_sum A K N x w j

/-- Entry (p, q) of the layer depends on row p only: two matrices that agree on a row give the same entry there. -/
theorem dense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    dense A K N x w b (ix2 p q) = dense A' K N x' w b (ix2 r q) := by
  show (∑ k : Fin K, x (ix2 p k) * w (ix2 k q)) + b (ix1 q) = (∑ k : Fin K, x' (ix2 r k) * w (ix2 k q)) + b (ix1 q)
  rw [Finset.sum_congr rfl fun k _ => by rw [h k]]

/-! ## gelu, tanh form -/

/-- gelu's tanh approximation on one extended real, the four f32 constants at their binary values. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The kernel's spelling, pointwise: splatted scalars, the cube as x * (x * x). -/
theorem gelu_kernel {s : Shape} (v : FVec Ideal s .f32) :
    mulf v (mulf (broadcast s (Scalar.ofBits (F := Ideal) .f32 0x3F000000#32))
      (addf (broadcast s (Scalar.ofBits (F := Ideal) .f32 0x3F800000#32))
        (tanh (mulf (broadcast s (Scalar.ofBits (F := Ideal) .f32 0x3F4C422A#32))
          (addf v (mulf (broadcast s (Scalar.ofBits (F := Ideal) .f32 0x3D372713#32)) (mulf v (mulf v v))))))))
      = fun j => gelu (v j) := rfl

/-- The host's spelling, pointwise: broadcast constants, the cube as (x * x) * x. -/
theorem gelu_host {s : Shape} (v : FVec Ideal s .f32) (hS : (⟨0, ![]⟩ : Shape).BroadcastsInDim s (![] : Fin 0 → Fin s.rank)) :
    mulf v (mulf (broadcastInDim s ![] hS (constant (F := Ideal) ⟨0, ![]⟩ .f32 0x3F000000#32))
      (addf (broadcastInDim s ![] hS (constant (F := Ideal) ⟨0, ![]⟩ .f32 0x3F800000#32))
        (Host.tanh (mulf (broadcastInDim s ![] hS (constant (F := Ideal) ⟨0, ![]⟩ .f32 0x3F4C422A#32))
          (addf v (mulf (broadcastInDim s ![] hS (constant (F := Ideal) ⟨0, ![]⟩ .f32 0x3D372713#32)) (mulf (mulf v v) v)))))))
      = fun j => gelu (v j) := by
  funext j
  show v j * (Ideal.ofBits .f32 0x3F000000#32 * (Ideal.ofBits .f32 0x3F800000#32
    + Ideal.tanh (Ideal.ofBits .f32 0x3F4C422A#32 * (v j + Ideal.ofBits .f32 0x3D372713#32 * ((v j * v j) * v j))))) = gelu (v j)
  rw [mul_comm (v j * v j) (v j)]
  rfl

end Cert.LibDense

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.LibLayers.lean ====
/-
  The layers of a three-layer graph network's node update, read as functions of rows at the ideal values.

  After the neighbours' rows have been summed into each node, a layer is a dense map of the node's row,
  sum_k x(r, k) * w(k, n) + b(n), followed either by relu, max(., 0), or, in the last layer, by the log-softmax of
  the row:  y(r, n) - m(r) - log (sum_k exp (y(r, k) - m(r)))  with m(r) the largest entry of row r.  Every entry of
  a layer's result depends on one row of its input only; that is what lets a kernel that walks over blocks of rows be
  compared with a reference that treats all rows at once.

  Each layer is read to its row function in two spellings: the kernel's (operands narrowed to bf16, which is the
  identity at the ideal values; a matrix product into a zero splat; lane reductions that carry their neutral element;
  a vector cast to a column and repeated along the rows) and the host's (dot_general; reductions with an initial
  value; broadcasts in two steps; one more maximum against -inf, which is the identity because -inf is the least
  extended real).  No law of arithmetic beyond 0 + x = x and max (-inf) x = x is used, so nothing here needs the
  inputs to be finite.  All of it is generic in the extents.  (The dense map itself, `dense`, and the two column readings
  come from the two lemma files imported first: a copy of this file needs copies of those beside it.)
-/
import proofs.«159971_j35450660062089_1_alg».proof.Proof.LibDense
import proofs.«159971_j35450660062089_1_alg».proof.Proof.LibLayout
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibLayers

open Idealize.ShloMosaic Idealize.ShloMosaic.ValueIdx Cert.LibDense

/-! ## Pointwise readings -/

theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl
theorem hostExp_apply {s : Shape} {φ : FTy} (x : FVec Ideal s φ) (i : s.Idx) : Host.exp x i = Ideal.exp (x i) := rfl
theorem hostLog_apply {s : Shape} {φ : FTy} (x : FVec Ideal s φ) (i : s.Idx) : Host.log x i = Ideal.log (x i) := rfl

/-! ## relu -/

/-- relu on every entry: the larger of the entry and the f32 zero. -/
def relu {s : Shape} (y : s.Idx → EReal) : s.Idx → EReal := fun j => max (y j) (Ideal.ofBits .f32 0x00000000#32)

/-- The kernel's spelling: the maximum with a splatted zero. -/
theorem relu_kernel {s : Shape} (y : FVec Ideal s .f32) :
    maximumf y (broadcast s (Scalar.ofBits (F := Ideal) .f32 0x00000000#32)) = relu y := rfl

/-- The host's spelling: the maximum with a broadcast zero constant. -/
theorem relu_host {s : Shape} (y : FVec Ideal s .f32) (hS : (⟨0, ![]⟩ : Shape).BroadcastsInDim s (![] : Fin 0 → Fin s.rank)) :
    maximumf y (broadcastInDim s ![] hS (constant (F := Ideal) ⟨0, ![]⟩ .f32 0x00000000#32)) = relu y := by
  funext j
  show max (y j) (Ideal.ofBits .f32 0x00000000#32) = relu y j
  rfl

/-- relu of an entry depends on that entry only. -/
theorem relu_congr {s s' : Shape} (y : s.Idx → EReal) (y' : s'.Idx → EReal) (j : s.Idx) (j' : s'.Idx) (h : y j = y' j') :
    relu y j = relu y' j' := by
  show max (y j) _ = max (y' j') _
  rw [h]

/-! ## The dense layer with its bias given as one row -/

/-- A [1, N] row read as the [N] vector of its entries. -/
def rowVec {N : Nat} (b1 : (⟨2, ![1, N]⟩ : Shape).Idx → EReal) : (⟨1, ![N]⟩ : Shape).Idx → EReal :=
  fun i => b1 (ix2 (0 : Fin 1) (i 0 : Fin N))

/-- A vector cast to one row, read back as a vector, is the vector. -/
theorem rowVec_shapeCast {N : Nat} (b : (⟨1, ![N]⟩ : Shape).Idx → EReal) (h : (⟨1, ![N]⟩ : Shape).ShapeCasts ⟨2, ![1, N]⟩) :
    rowVec (shapeCast ⟨2, ![1, N]⟩ b h) = b := by
  funext i
  obtain ⟨q, rfl⟩ : ∃ q : Fin N, i = ix1 q := ⟨i 0, eq_ix1 i⟩
  exact shapeCast_apply b h (ix2 (0 : Fin 1) q) (ix1 q) (by
    rw [Shape.rowMajor_val_two, Shape.rowMajor_val_one]; show q.val = 0 * N + q.val; omega)

/-- The kernel's dense layer when the bias arrives as one row: both operands pass through an identity cast and a
    narrowing to bf16, the product accumulates into a zero splat, the row is cast to itself and repeated down the rows. -/
theorem dense_kernel_row {A K N : Nat} (x : FVec Ideal ⟨2, ![A, K]⟩ .f32) (w : FVec Ideal ⟨2, ![K, N]⟩ .f32)
    (b1 : FVec Ideal ⟨2, ![1, N]⟩ .f32) (hlt : FTy.bits .bf16 < FTy.bits .f32)
    (hx : (⟨2, ![A, K]⟩ : Shape).ShapeCasts ⟨2, ![A, K]⟩)
    (h1 : (⟨2, ![1, N]⟩ : Shape).ShapeCasts ⟨2, ![1, N]⟩) (hb : (⟨2, ![1, N]⟩ : Shape).Broadcasts ⟨2, ![A, N]⟩) :
    addf (matmul (DotDims.plain A K N) none (truncf .bf16 (shapeCast ⟨2, ![A, K]⟩ x hx) hlt) (truncf .bf16 w hlt)
        (constant ⟨2, ![A, N]⟩ .f32 0x00000000#32))
      (broadcastTo ⟨2, ![A, N]⟩ (shapeCast ⟨2, ![1, N]⟩ b1 h1) hb) = dense A K N x w (rowVec b1) := by
  rw [shapeCast_self x hx, shapeCast_self b1 h1]
  funext j
  rw [addf_apply]
  have eb : broadcastTo ⟨2, ![A, N]⟩ b1 hb j = b1 (ix2 (0 : Fin 1) (j 1 : Fin N)) :=
    broadcastTo_apply b1 hb j (ix2 (0 : Fin 1) (j 1 : Fin N)) (by
      intro a
      match a with
      | ⟨0, _⟩ => rfl
      | ⟨1, _⟩ =>
        show (j 1).val = if N = 1 then 0 else (j 1).val
        split
        · have := (j 1).isLt; have e : (j 1).val < N := this; omega
        · rfl)
  rw [eb]
  refine congrArg (· + b1 (ix2 (0 : Fin 1) (j 1 : Fin N))) ?_
  refine (Ideal.matmul_constant_zero_apply (DotDims.plain A K N) none (truncf .bf16 x hlt) (truncf .bf16 w hlt) j).trans ?_
  exact plain_sum A K N x w j

/-! ## The host's column layouts -/

/-- A column broadcast along the rows reads the column's entry of the row. -/
theorem col2_host {A N : Nat} {α : Type} (hbc : (⟨2, ![A, 1]⟩ : Shape).BroadcastsInDim ⟨2, ![A, N]⟩ ![0, 1])
    (u : (⟨2, ![A, 1]⟩ : Shape).Idx → α) (p : Fin A) (q : Fin N) :
    broadcastInDim ⟨2, ![A, N]⟩ ![0, 1] hbc u (ix2 p q) = u (ix2 p (0 : Fin 1)) := by
  refine broadcastInDim_apply ![0, 1] hbc u (ix2 p q) (ix2 p (0 : Fin 1)) ?_
  intro a
  match a with
  | ⟨0, _⟩ =>
    show p.val = if A = 1 then 0 else p.val
    split
    · have := p.isLt; omega
    · rfl
  | ⟨1, _⟩ => rfl

/-- A vector broadcast to a column along axis 0 reads the vector at the row. -/
theorem col1_host {A : Nat} {α : Type} (hd : (⟨1, ![A]⟩ : Shape).BroadcastsInDim ⟨2, ![A, 1]⟩ ![0])
    (v : (⟨1, ![A]⟩ : Shape).Idx → α) (p : Fin A) (z : Fin 1) :
    broadcastInDim ⟨2, ![A, 1]⟩ ![0] hd v (ix2 p z) = v (ix1 p) := by
  refine broadcastInDim_apply ![0] hd v (ix2 p z) (ix1 p) ?_
  intro a
  match a with
  | ⟨0, _⟩ =>
    show p.val = if A = 1 then 0 else p.val
    split
    · have := p.isLt; omega
    · rfl

/-- The two steps together: a vector laid out as a column and repeated along the rows reads the vector at the row. -/
theorem col_host {A N : Nat} {α : Type} (hd : (⟨1, ![A]⟩ : Shape).BroadcastsInDim ⟨2, ![A, 1]⟩ ![0])
    (hbc : (⟨2, ![A, 1]⟩ : Shape).BroadcastsInDim ⟨2, ![A, N]⟩ ![0, 1]) (v : (⟨1, ![A]⟩ : Shape).Idx → α)
    (p : Fin A) (q : Fin N) :
    broadcastInDim ⟨2, ![A, N]⟩ ![0, 1] hbc (broadcastInDim ⟨2, ![A, 1]⟩ ![0] hd v) (ix2 p q) = v (ix1 p) :=
  (col2_host hbc _ p q).trans (col1_host hd v p 0)

/-! ## The log-softmax of every row -/

/-- The largest entry of row p, starting from -inf. -/
def rowMax {A N : Nat} (y : (⟨2, ![A, N]⟩ : Shape).Idx → EReal) (p : Fin A) : EReal :=
  (Finset.univ : Finset (Fin N)).fold max (Ideal.ofBits .f32 0xFF800000#32) fun k => y (ix2 p k)

/-- The log-softmax of each row: the entry less the row's maximum, less the logarithm of the row's sum of the
    exponentials of such differences. -/
def logSoftmax {A N : Nat} (y : (⟨2, ![A, N]⟩ : Shape).Idx → EReal) : (⟨2, ![A, N]⟩ : Shape).Idx → EReal :=
  fun j => (y j - rowMax y (j 0 : Fin A))
    - Ideal.log (∑ k : Fin N, Ideal.exp (y (ix2 (j 0 : Fin A) k) - rowMax y (j 0 : Fin A)))

/-- Two matrices that agree on a row have the same maximum there. -/
theorem rowMax_congr {A A' N : Nat} (y : (⟨2, ![A, N]⟩ : Shape).Idx → EReal) (y' : (⟨2, ![A', N]⟩ : Shape).Idx → EReal)
    (p : Fin A) (r : Fin A') (h : ∀ k : Fin N, y (ix2 p k) = y' (ix2 r k)) : rowMax y p = rowMax y' r := by
  unfold rowMax
  exact congrArg (fun f => (Finset.univ : Finset (Fin N)).fold max (Ideal.ofBits .f32 0xFF800000#32) f) (funext h)

/-- Entry (p, q) of the log-softmax depends on row p only. -/
theorem logSoftmax_row {A A' N : Nat} (y : (⟨2, ![A, N]⟩ : Shape).Idx → EReal) (y' : (⟨2, ![A', N]⟩ : Shape).Idx → EReal)
    (p : Fin A) (r : Fin A') (q : Fin N) (h : ∀ k : Fin N, y (ix2 p k) = y' (ix2 r k)) :
    logSoftmax y (ix2 p q) = logSoftmax y' (ix2 r q) := by
  have hm := rowMax_congr y y' p r h
  show (y (ix2 p q) - rowMax y p) - Ideal.log (∑ k : Fin N, Ideal.exp (y (ix2 p k) - rowMax y p))
    = (y' (ix2 r q) - rowMax y' r) - Ideal.log (∑ k : Fin N, Ideal.exp (y' (ix2 r k) - rowMax y' r))
  rw [hm, h q, Finset.sum_congr rfl fun k _ => by rw [h k]]

/-- The kernel's row maximum, cast to a column and repeated along the rows, reads the row's maximum. -/
theorem rowMax_kernel {A N : Nat} (y : FVec Ideal ⟨2, ![A, N]⟩ .f32)
    (hr : (⟨2, ![A, N]⟩ : Shape).Reduces [1] ⟨1, ![A]⟩) (hφ : FKind.Formats .f32)
    (hm : (0xFF800000#32 : BitVec 32) = FKind.maximumf.neutral .f32 hφ)
    (hc : (⟨1, ![A]⟩ : Shape).ShapeCasts ⟨2, ![A, 1]⟩) (hb : (⟨2, ![A, 1]⟩ : Shape).Broadcasts ⟨2, ![A, N]⟩)
    (p : Fin A) (q : Fin N) :
    broadcastTo ⟨2, ![A, N]⟩ (shapeCast ⟨2, ![A, 1]⟩ (multiReduction .maximumf [1] ⟨1, ![A]⟩ y 0xFF800000#32 hr hφ hm) hc) hb (ix2 p q)
      = rowMax y p := by
  rw [LibLayout.broadcastTo_a1_ab_apply, LibLayout.shapeCast_a_a1_apply]
  refine (Ideal.multiReduction_maximumf_single y _ hr hφ hm (ix1 p)).trans ?_
  show (Finset.univ : Finset (Fin N)).fold max (Ideal.ofBits .f32 0xFF800000#32) (y ∘ hr.lift (ix1 p)) = rowMax y p
  unfold rowMax
  refine congrArg (fun f => (Finset.univ : Finset (Fin N)).fold max (Ideal.ofBits .f32 0xFF800000#32) f) (funext fun k => ?_)
  exact congrArg y (funext fun c => Fin.ext (by
    match c with
    | ⟨0, _⟩ => rfl
    | ⟨1, _⟩ => rfl))

/-- The kernel's log-softmax of a tile of rows is the log-softmax of each of its rows. -/
theorem logSoftmax_kernel {A N : Nat} (y : FVec Ideal ⟨2, ![A, N]⟩ .f32)
    (hr : (⟨2, ![A, N]⟩ : Shape).Reduces [1] ⟨1, ![A]⟩) (hφ : FKind.Formats .f32)
    (hm : (0xFF800000#32 : BitVec 32) = FKind.maximumf.neutral .f32 hφ)
    (ha : (0x00000000#32 : BitVec 32) = FKind.add.neutral .f32 hφ)
    (hc : (⟨1, ![A]⟩ : Shape).ShapeCasts ⟨2, ![A, 1]⟩) (hb : (⟨2, ![A, 1]⟩ : Shape).Broadcasts ⟨2, ![A, N]⟩) :
    subf (subf y (broadcastTo ⟨2, ![A, N]⟩ (shapeCast ⟨2, ![A, 1]⟩ (multiReduction .maximumf [1] ⟨1, ![A]⟩ y 0xFF800000#32 hr hφ hm) hc) hb))
      (broadcastTo ⟨2, ![A, N]⟩ (log (shapeCast ⟨2, ![A, 1]⟩ (multiReduction .add [1] ⟨1, ![A]⟩
        (exp (subf y (broadcastTo ⟨2, ![A, N]⟩ (shapeCast ⟨2, ![A, 1]⟩ (multiReduction .maximumf [1] ⟨1, ![A]⟩ y 0xFF800000#32 hr hφ hm) hc) hb)))
        0x00000000#32 hr hφ ha) hc)) hb)
      = logSoftmax y := by
  have hsh : subf y (broadcastTo ⟨2, ![A, N]⟩ (shapeCast ⟨2, ![A, 1]⟩ (multiReduction .maximumf [1] ⟨1, ![A]⟩ y 0xFF800000#32 hr hφ hm) hc) hb)
      = fun j => y j - rowMax y (j 0 : Fin A) := by
    funext j
    obtain ⟨p, q, rfl⟩ : ∃ (p : Fin A) (q : Fin N), j = ix2 p q := ⟨j 0, j 1, eq_ix2 j⟩
    rw [subf_apply, rowMax_kernel y hr hφ hm hc hb p q]
    rfl
  rw [hsh]
  funext j
  obtain ⟨p, q, rfl⟩ : ∃ (p : Fin A) (q : Fin N), j = ix2 p q := ⟨j 0, j 1, eq_ix2 j⟩
  rw [subf_apply, LibLayout.broadcastTo_a1_ab_apply, log_apply, LibLayout.shapeCast_a_a1_apply]
  show (y (ix2 p q) - rowMax y p) - Ideal.log _ = (y (ix2 p q) - rowMax y p) - Ideal.log _
  refine congrArg (fun s => (y (ix2 p q) - rowMax y p) - Ideal.log s) ?_
  refine (Ideal.multiReduction_add_single _ _ hr hφ ha (ix1 p)).trans ?_
  show ∑ k : Fin N, _ = ∑ k : Fin N, _
  refine Finset.sum_congr rfl fun k _ => ?_
  have el : hr.lift (ix1 p) k = ix2 p k := funext fun c => Fin.ext (by
    match c with
    | ⟨0, _⟩ => rfl
    | ⟨1, _⟩ => rfl)
  rw [el, exp_apply]
  rfl

/-- The host's row maximum (a reduce from -inf, then one more maximum against a splat of -inf), laid out as a column
    and repeated along the rows, reads the row's maximum. -/
theorem rowMax_host {A N : Nat} (y : FVec Ideal ⟨2, ![A, N]⟩ .f32)
    (h' : (⟨2, ![A, N]⟩ : Shape).ReducesTo [1] ⟨1, ![A]⟩) (hr : (⟨2, ![A, N]⟩ : Shape).Reduces [1] ⟨1, ![A]⟩)
    (hu : 0 < (⟨0, ![]⟩ : Shape).numel)
    (hS : (⟨0, ![]⟩ : Shape).BroadcastsInDim ⟨1, ![A]⟩ (![] : Fin 0 → Fin 1))
    (hd : (⟨1, ![A]⟩ : Shape).BroadcastsInDim ⟨2, ![A, 1]⟩ ![0])
    (hbc : (⟨2, ![A, 1]⟩ : Shape).BroadcastsInDim ⟨2, ![A, N]⟩ ![0, 1]) (p : Fin A) (q : Fin N) :
    broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu))) (ix2 p q)
      = rowMax y p := by
  rw [col_host hd hbc _ p q, maximumf_apply]
  show max (Ideal.ofBits .f32 0xFF800000#32) _ = _
  rw [Host.reduce_eq_fold_single FloatOps.maximumf y _ h' hr hu (ix1 p)]
  have hbot : Ideal.ofBits .f32 0xFF800000#32 = (⊥ : EReal) := by simp [Ideal.ofBits, Ideal.ieee]
  show max (Ideal.ofBits .f32 0xFF800000#32)
      ((Finset.univ : Finset (Fin N)).fold max (Ideal.ofBits .f32 0xFF800000#32) (y ∘ hr.lift (ix1 p))) = rowMax y p
  rw [hbot, max_eq_right bot_le, ← hbot]
  unfold rowMax
  refine congrArg (fun f => (Finset.univ : Finset (Fin N)).fold max (Ideal.ofBits .f32 0xFF800000#32) f) (funext fun k => ?_)
  exact congrArg y (funext fun c => Fin.ext (by
    match c with
    | ⟨0, _⟩ => rfl
    | ⟨1, _⟩ => rfl))

/-- The host's log-softmax of all rows is the log-softmax of each row. -/
theorem logSoftmax_host {A N : Nat} (y : FVec Ideal ⟨2, ![A, N]⟩ .f32)
    (h' : (⟨2, ![A, N]⟩ : Shape).ReducesTo [1] ⟨1, ![A]⟩) (hr : (⟨2, ![A, N]⟩ : Shape).Reduces [1] ⟨1, ![A]⟩)
    (hu : 0 < (⟨0, ![]⟩ : Shape).numel)
    (hS : (⟨0, ![]⟩ : Shape).BroadcastsInDim ⟨1, ![A]⟩ (![] : Fin 0 → Fin 1))
    (hd : (⟨1, ![A]⟩ : Shape).BroadcastsInDim ⟨2, ![A, 1]⟩ ![0])
    (hbc : (⟨2, ![A, 1]⟩ : Shape).BroadcastsInDim ⟨2, ![A, N]⟩ ![0, 1]) :
    subf (subf y (broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu)))))
      (broadcastInDim ⟨2, ![A, N]⟩ ![0, 1] hbc (Host.log (broadcastInDim ⟨2, ![A, 1]⟩ ![0] hd
        (Host.reduceAdd (Host.exp (subf y (broadcastInDim ⟨2, ![A, N]⟩ ![0, 1] hbc (broadcastInDim ⟨2, ![A, 1]⟩ ![0] hd
          (maximumf (broadcastInDim ⟨1, ![A]⟩ ![] hS (constant (F := Ideal) ⟨0, ![]⟩ .f32 0xFF800000#32))
            (Host.reduce FloatOps.maximumf y (constant (F := Ideal) ⟨0, ![]⟩ .f32 0xFF800000#32) h' hu))))))
          (constant (F := Ideal) ⟨0, ![]⟩ .f32 0x00000000#32) h' hu))))
      = logSoftmax y := by
  have hsh : subf y (broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu))))
      = fun j => y j - rowMax y (j 0 : Fin A) := by
    funext j
    obtain ⟨p, q, rfl⟩ : ∃ (p : Fin A) (q : Fin N), j = ix2 p q := ⟨j 0, j 1, eq_ix2 j⟩
    rw [subf_apply, rowMax_host y h' hr hu hS hd hbc p q]
    rfl
  rw [hsh]
  funext j
  obtain ⟨p, q, rfl⟩ : ∃ (p : Fin A) (q : Fin N), j = ix2 p q := ⟨j 0, j 1, eq_ix2 j⟩
  rw [subf_apply, col2_host hbc _ p q, hostLog_apply, col1_host hd _ p 0]
  show (y (ix2 p q) - rowMax y p) - Ideal.log _ = (y (ix2 p q) - rowMax y p) - Ideal.log _
  refine congrArg (fun s => (y (ix2 p q) - rowMax y p) - Ideal.log s) ?_
  show Ideal.hostReduceAdd h' (Host.exp fun j => y j - rowMax y (j 0 : Fin A)) (Ideal.ofBits .f32 0x00000000#32) (ix1 p) = _
  rw [Ideal.hostReduceAdd_single h' hr, Ideal.ofBits_zero_f32, zero_add]
  show ∑ k : Fin N, _ = ∑ k : Fin N, _
  refine Finset.sum_congr rfl fun k _ => ?_
  have el : hr.lift (ix1 p) k = ix2 p k := funext fun c => Fin.ext (by
    match c with
    | ⟨0, _⟩ => rfl
    | ⟨1, _⟩ => rfl)
  rw [el, hostExp_apply]
  rfl

/-! ## The layers -/

/-- A hidden layer: relu of the dense map of each row. -/
def reluDense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal := relu (dense A K N x w b)

/-- The last layer: the log-softmax of the dense map of each row. -/
def lsmDense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal := logSoftmax (dense A K N x w b)

/-- Entry (p, q) of a hidden layer depends on row p of its input only. -/
theorem reluDense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    reluDense A K N x w b (ix2 p q) = reluDense A' K N x' w b (ix2 r q) :=
  relu_congr _ _ _ _ (dense_row x x' w b p r q h)

/-- Entry (p, q) of the last layer depends on row p of its input only. -/
theorem lsmDense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    lsmDense A K N x w b (ix2 p q) = lsmDense A' K N x' w b (ix2 r q) :=
  logSoftmax_row _ _ p r q fun k => dense_row x x' w b p r k h

/-- The host's hidden layer (dot_general, the bias broadcast twice, the maximum with a broadcast zero) is relu of the
    dense map of each row. -/
theorem reluDense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1])
    (hS : (⟨0, ![]⟩ : Shape).BroadcastsInDim ⟨2, ![A, N]⟩ (![] : Fin 0 → Fin 2)) :
    maximumf (addf (Host.dotGeneral (DotDims.plain A K N) none x w)
        (broadcastInDim ⟨2, ![A, N]⟩ ![0, 1] hbc (broadcastInDim ⟨2, ![1, N]⟩ ![1] hd b)))
      (broadcastInDim ⟨2, ![A, N]⟩ ![] hS (constant (F := Ideal) ⟨0, ![]⟩ .f32 0x00000000#32)) = reluDense A K N x w b := by
  rw [dense_host x w b hd hbc]
  exact relu_host _ hS

/-- The host's last layer: the log-softmax spelt over the dense map y is the log-softmax of the dense map of each row. -/
theorem lsmDense_host {A K N : Nat} (x : FVec Ideal ⟨2, ![A, K]⟩ .f32) (w : FVec Ideal ⟨2, ![K, N]⟩ .f32)
    (b : FVec Ideal ⟨1, ![N]⟩ .f32) (y : FVec Ideal ⟨2, ![A, N]⟩ .f32)
    (hd1 : (⟨1, ![N]⟩ : Shape).BroadcastsInDim ⟨2, ![1, N]⟩ ![1])
    (hbc1 : (⟨2, ![1, N]⟩ : Shape).BroadcastsInDim ⟨2, ![A, N]⟩ ![0, 1])
    (hy : y = addf (Host.dotGeneral (DotDims.plain A K N) none x w)
      (broadcastInDim ⟨2, ![A, N]⟩ ![0, 1] hbc1 (broadcastInDim ⟨2, ![1, N]⟩ ![1] hd1 b)))
    (h' : (⟨2, ![A, N]⟩ : Shape).ReducesTo [1] ⟨1, ![A]⟩) (hr : (⟨2, ![A, N]⟩ : Shape).Reduces [1] ⟨1, ![A]⟩)
    (hu : 0 < (⟨0, ![]⟩ : Shape).numel)
    (hS : (⟨0, ![]⟩ : Shape).BroadcastsInDim ⟨1, ![A]⟩ (![] : Fin 0 → Fin 1))
    (hd : (⟨1, ![A]⟩ : Shape).BroadcastsInDim ⟨2, ![A, 1]⟩ ![0])
    (hbc : (⟨2, ![A, 1]⟩ : Shape).BroadcastsInDim ⟨2, ![A, N]⟩ ![0, 1]) :
    subf (subf y (broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu)))))
      (broadcastInDim ⟨2, ![A, N]⟩ ![0, 1] hbc (Host.log (broadcastInDim ⟨2, ![A, 1]⟩ ![0] hd
        (Host.reduceAdd (Host.exp (subf y (broadcastInDim ⟨2, ![A, N]⟩ ![0, 1] hbc (broadcastInDim ⟨2, ![A, 1]⟩ ![0] hd
          (maximumf (broadcastInDim ⟨1, ![A]⟩ ![] hS (constant (F := Ideal) ⟨0, ![]⟩ .f32 0xFF800000#32))
            (Host.reduce FloatOps.maximumf y (constant (F := Ideal) ⟨0, ![]⟩ .f32 0xFF800000#32) h' hu))))))
          (constant (F := Ideal) ⟨0, ![]⟩ .f32 0x00000000#32) h' hu))))
      = lsmDense A K N x w b := by
  rw [logSoftmax_host y h' hr hu hS hd hbc, hy, dense_host x w b hd1 hbc1]
  rfl

/-- The kernel's hidden layer on a tile of rows. -/
theorem reluDense_kernel {A K N : Nat} (x : FVec Ideal ⟨2, ![A, K]⟩ .f32) (w : FVec Ideal ⟨2, ![K, N]⟩ .f32)
    (b1 : FVec Ideal ⟨2, ![1, N]⟩ .f32) (hlt : FTy.bits .bf16 < FTy.bits .f32)
    (hx : (⟨2, ![A, K]⟩ : Shape).ShapeCasts ⟨2, ![A, K]⟩)
    (h1 : (⟨2, ![1, N]⟩ : Shape).ShapeCasts ⟨2, ![1, N]⟩) (hb : (⟨2, ![1, N]⟩ : Shape).Broadcasts ⟨2, ![A, N]⟩) :
    maximumf (addf (matmul (DotDims.plain A K N) none (truncf .bf16 (shapeCast ⟨2, ![A, K]⟩ x hx) hlt) (truncf .bf16 w hlt)
        (constant ⟨2, ![A, N]⟩ .f32 0x00000000#32))
      (broadcastTo ⟨2, ![A, N]⟩ (shapeCast ⟨2, ![1, N]⟩ b1 h1) hb))
      (broadcast ⟨2, ![A, N]⟩ (Scalar.ofBits (F := Ideal) .f32 0x00000000#32)) = reluDense A K N x w (rowVec b1) := by
  rw [dense_kernel_row x w b1 hlt hx h1 hb]
  exact relu_kernel _

/-- The kernel's last layer on a tile of rows: the log-softmax spelt over its dense map y. -/
theorem lsmDense_kernel {A K N : Nat} (x : FVec Ideal ⟨2, ![A, K]⟩ .f32) (w : FVec Ideal ⟨2, ![K, N]⟩ .f32)
    (b1 : FVec Ideal ⟨2, ![1, N]⟩ .f32) (y : FVec Ideal ⟨2, ![A, N]⟩ .f32) (hlt : FTy.bits .bf16 < FTy.bits .f32)
    (hx : (⟨2, ![A, K]⟩ : Shape).ShapeCasts ⟨2, ![A, K]⟩)
    (h1 : (⟨2, ![1, N]⟩ : Shape).ShapeCasts ⟨2, ![1, N]⟩) (hb : (⟨2, ![1, N]⟩ : Shape).Broadcasts ⟨2, ![A, N]⟩)
    (hy : y = addf (matmul (DotDims.plain A K N) none (truncf .bf16 (shapeCast ⟨2, ![A, K]⟩ x hx) hlt) (truncf .bf16 w hlt)
        (constant ⟨2, ![A, N]⟩ .f32 0x00000000#32))
      (broadcastTo ⟨2, ![A, N]⟩ (shapeCast ⟨2, ![1, N]⟩ b1 h1) hb))
    (hr : (⟨2, ![A, N]⟩ : Shape).Reduces [1] ⟨1, ![A]⟩) (hφ : FKind.Formats .f32)
    (hm : (0xFF800000#32 : BitVec 32) = FKind.maximumf.neutral .f32 hφ)
    (ha : (0x00000000#32 : BitVec 32) = FKind.add.neutral .f32 hφ)
    (hc : (⟨1, ![A]⟩ : Shape).ShapeCasts ⟨2, ![A, 1]⟩) (hbc : (⟨2, ![A, 1]⟩ : Shape).Broadcasts ⟨2, ![A, N]⟩) :
    subf (subf y (broadcastTo ⟨2, ![A, N]⟩ (shapeCast ⟨2, ![A, 1]⟩ (multiReduction .maximumf [1] ⟨1, ![A]⟩ y 0xFF800000#32 hr hφ hm) hc) hbc))
      (broadcastTo ⟨2, ![A, N]⟩ (log (shapeCast ⟨2, ![A, 1]⟩ (multiReduction .add [1] ⟨1, ![A]⟩
        (exp (subf y (broadcastTo ⟨2, ![A, N]⟩ (shapeCast ⟨2, ![A, 1]⟩ (multiReduction .maximumf [1] ⟨1, ![A]⟩ y 0xFF800000#32 hr hφ hm) hc) hbc)))
        0x00000000#32 hr hφ ha) hc)) hbc)
      = lsmDense A K N x w (rowVec b1) := by
  rw [logSoftmax_kernel y hr hφ hm ha hc hbc, hy, dense_kernel_row x w b1 hlt hx h1 hb]
  rfl

end Cert.LibLayers

end
-- ==== Proof.Region0.lean ====
/-
  The first hidden layer's kernel region, read as one function of the arrays it is entered with.

  The region walks over ten blocks of 5000 node rows.  At point t it reads rows 5000 t .. 5000 t + 4999 of the
  aggregated features, the whole weight matrix and the bias row, and writes relu (x w + b) of those rows to the same
  rows of its output.  Entry (r, n) of relu (x w + b) depends on row r of x only, so what the ten write-backs leave is
  the hidden layer of ALL rows: block t of that one array function is what point t wrote, and the ten blocks tile the
  array.  Everything is stated for any contents V the region may be entered with.
-/
import proofs.«159971_j35450660062089_1_alg».proof.Proof.Gen.KernelIdeal.Frame
import proofs.«159971_j35450660062089_1_alg».proof.Proof.LibLayers
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.LibLayers Cert.LibDense

variable (V : (c : Dev nD) → (b : Ref sig .tc) → Buf (Elt Ideal) ((c : Thread nD τ).loc b))

theorem hz : (![0, 0] : Fin 2 → Nat) = fun _ => 0 := funext fun a => by fin_cases a <;> rfl

/-- What the body stores: relu of the dense map of the rows it loaded, the bias taken from the one-row block. -/
theorem pay_eq (x0 : FVec Ideal S5000x64 .f32) (x1 : FVec Ideal S64x64 .f32) (x2 : FVec Ideal S1x64 .f32) :
    k0_pay1 (F := Ideal) x0 x1 x2 = reluDense 5000 64 64 x0 x1 (rowVec x2) :=
  reluDense_kernel (A := 5000) (K := 64) (N := 64) x0 x1 x2 bitsLt_bf16_f32 shapeCasts_S5000x64_S5000x64
    shapeCasts_S1x64_S1x64 broadcasts_S1x64_S5000x64

/-- The array the region leaves: the hidden layer of all the rows it was entered with. -/
def G (c : Dev nD) : S50000x64.Idx → EReal :=
  reluDense 50000 64 64 (V c main_v9 : S50000x64.Idx → EReal) (V c main_arg1 : S64x64.Idx → EReal)
    (rowVec (V c main_v10 : S1x64.Idx → EReal))

/-- The printed index maps over the grid: the rows' windows move with the point, the weights' and the bias's stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the input block at point t is row 5000 t + p of the array. -/
theorem rows_apply (c : Dev nD) (t : Fin cfg0.N) (p : Fin 5000) (k : Fin 64) (r : Fin 50000)
    (hr : r.val = t.val * 5000 + p.val) :
    (iblk0 V c 0 t : S5000x64.Idx → EReal) (ix2 p k) = (V c main_v9 : S50000x64.Idx → EReal) (ix2 r k) := by
  obtain ⟨e0, e1, -⟩ := idx_facts t
  unfold iblk0
  rw [View.read_apply]
  show (V c main_v9 : S50000x64.Idx → EReal) _ = _
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 64 + 1 * k.val = k.val; rw [e1]; omega

/-- The weights' block at any point is the whole weight matrix. -/
theorem weights_eq (c : Dev nD) (t : Fin cfg0.N) :
    (iblk0 V c 1 t : S64x64.Idx → EReal) = (V c main_arg1 : S64x64.Idx → EReal) := by
  obtain ⟨-, -, e2, e3, -⟩ := idx_facts t
  funext y
  unfold iblk0
  rw [View.read_apply]
  show (V c main_arg1 : S64x64.Idx → EReal) _ = _
  refine congrArg _ (funext fun a => Fin.ext ?_)
  match a with
  | ⟨0, _⟩ => show win0_1.index t (0 : Fin 2) * 64 + 1 * (y 0).val = (y 0).val; rw [e2]; omega
  | ⟨1, _⟩ => show win0_1.index t (1 : Fin 2) * 64 + 1 * (y 1).val = (y 1).val; rw [e3]; omega

/-- The bias's block at any point is the whole bias row. -/
theorem bias_eq (c : Dev nD) (t : Fin cfg0.N) :
    (iblk0 V c 2 t : S1x64.Idx → EReal) = (V c main_v10 : S1x64.Idx → EReal) := by
  obtain ⟨-, -, -, -, e4, e5, -⟩ := idx_facts t
  funext y
  unfold iblk0
  rw [View.read_apply]
  show (V c main_v10 : S1x64.Idx → EReal) _ = _
  refine congrArg _ (funext fun a => Fin.ext ?_)
  match a with
  | ⟨0, _⟩ => show win0_2.index t (0 : Fin 2) * 1 + 1 * (y 0).val = (y 0).val; rw [e4]; omega
  | ⟨1, _⟩ => show win0_2.index t (1 : Fin 2) * 64 + 1 * (y 1).val = (y 1).val; rw [e5]; omega

/-- What point t writes back is block t of G. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz, View.ld_unit_zero (S := S1x64) hz]
  funext y
  obtain ⟨p, q, rfl⟩ : ∃ (p : Fin 5000) (q : Fin 64), y = ix2 p q := ⟨y 0, y 1, eq_ix2 y⟩
  obtain ⟨-, -, -, -, -, -, e6, e7⟩ := idx_facts t
  have ht : t.val < 10 := lt_of_lt_of_eq t.isLt N_0
  have hemb : ((cfg0.win 3).blk t).view.emb (ix2 p q)
      = ix2 (⟨t.val * 5000 + p.val, by have := p.isLt; omega⟩ : Fin 50000) q := funext fun a => Fin.ext (by
    match a with
    | ⟨0, _⟩ => show win0_3.index t (0 : Fin 2) * 5000 + 1 * p.val = t.val * 5000 + p.val; rw [e6]; omega
    | ⟨1, _⟩ => show win0_3.index t (1 : Fin 2) * 64 + 1 * q.val = q.val; rw [e7]; omega)
  rw [View.read_apply, hemb]
  refine (congrFun (pay_eq (iblk0 V c 0 t) (iblk0 V c 1 t) (iblk0 V c 2 t)) (ix2 p q)).trans ?_
  rw [weights_eq V c t, bias_eq V c t]
  exact reluDense_row _ _ _ _ p _ q fun k => rows_apply V c t p k _ rfl

/-- An index of the array is in point t's block iff each coordinate is in the block's range on its axis. -/
theorem mem_blk (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v11).slice (win0_3.rect t)).set ↔ _
  rw [View.set_slice_whole, Rect.mem_set_unit]
  exact Iff.rfl

/-- The ten blocks tile the array: row r lies in the block of point r / 5000. -/
theorem cover (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  obtain ⟨-, -, -, -, -, -, e6, e7⟩ := idx_facts t
  have e6' : win0_3.index t (0 : Fin 2) = (i 0).val / 5000 := e6
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    rw [e6']; omega
  | ⟨1, _⟩ =>
    show win0_3.index t (1 : Fin 2) * 64 ≤ (i 1).val ∧ (i 1).val < win0_3.index t (1 : Fin 2) * 64 + 64
    rw [e7]; omega

/-- The region's output array after its ten write-backs is the hidden layer of all rows. -/
theorem final (c : Dev nD) : (dat0 V c).arrAt 3 cfg0.N = G V c :=
  (dat0 V c).arrAt_eq_of_cover 3 (G V c) (fun t _ => flushed_eq V c t) cover

end Cert.KernelIdeal.Region0

end
-- ==== Proof.Region1.lean ====
/-
  The second hidden layer's kernel region, read as one function of the arrays it is entered with.

  The region walks over ten blocks of 5000 node rows.  At point t it reads rows 5000 t .. 5000 t + 4999 of the
  aggregated first hidden layer, the whole weight matrix and the bias row, and writes relu (x w + b) of those rows to the same
  rows of its output.  Entry (r, n) of relu (x w + b) depends on row r of x only, so what the ten write-backs leave is
  the hidden layer of ALL rows: block t of that one array function is what point t wrote, and the ten blocks tile the
  array.  Everything is stated for any contents V the region may be entered with.
-/
import proofs.«159971_j35450660062089_1_alg».proof.Proof.Gen.KernelIdeal.Frame
import proofs.«159971_j35450660062089_1_alg».proof.Proof.LibLayers
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.LibLayers Cert.LibDense

variable (V : (c : Dev nD) → (b : Ref sig .tc) → Buf (Elt Ideal) ((c : Thread nD τ).loc b))

theorem hz : (![0, 0] : Fin 2 → Nat) = fun _ => 0 := funext fun a => by fin_cases a <;> rfl

/-- What the body stores: relu of the dense map of the rows it loaded, the bias taken from the one-row block. -/
theorem pay_eq (x0 : FVec Ideal S5000x64 .f32) (x1 : FVec Ideal S64x64 .f32) (x2 : FVec Ideal S1x64 .f32) :
    k1_pay1 (F := Ideal) x0 x1 x2 = reluDense 5000 64 64 x0 x1 (rowVec x2) :=
  reluDense_kernel (A := 5000) (K := 64) (N := 64) x0 x1 x2 bitsLt_bf16_f32 shapeCasts_S5000x64_S5000x64
    shapeCasts_S1x64_S1x64 broadcasts_S1x64_S5000x64

/-- The array the region leaves: the hidden layer of all the rows it was entered with. -/
def G (c : Dev nD) : S50000x64.Idx → EReal :=
  reluDense 50000 64 64 (V c main_v21 : S50000x64.Idx → EReal) (V c main_arg3 : S64x64.Idx → EReal)
    (rowVec (V c main_v22 : S1x64.Idx → EReal))

/-- The printed index maps over the grid: the rows' windows move with the point, the weights' and the bias's stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of the input block at point t is row 5000 t + p of the array. -/
theorem rows_apply (c : Dev nD) (t : Fin cfg1.N) (p : Fin 5000) (k : Fin 64) (r : Fin 50000)
    (hr : r.val = t.val * 5000 + p.val) :
    (iblk1 V c 0 t : S5000x64.Idx → EReal) (ix2 p k) = (V c main_v21 : S50000x64.Idx → EReal) (ix2 r k) := by
  obtain ⟨e0, e1, -⟩ := idx_facts t
  unfold iblk1
  rw [View.read_apply]
  show (V c main_v21 : S50000x64.Idx → EReal) _ = _
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 64 + 1 * k.val = k.val; rw [e1]; omega

/-- The weights' block at any point is the whole weight matrix. -/
theorem weights_eq (c : Dev nD) (t : Fin cfg1.N) :
    (iblk1 V c 1 t : S64x64.Idx → EReal) = (V c main_arg3 : S64x64.Idx → EReal) := by
  obtain ⟨-, -, e2, e3, -⟩ := idx_facts t
  funext y
  unfold iblk1
  rw [View.read_apply]
  show (V c main_arg3 : S64x64.Idx → EReal) _ = _
  refine congrArg _ (funext fun a => Fin.ext ?_)
  match a with
  | ⟨0, _⟩ => show win1_1.index t (0 : Fin 2) * 64 + 1 * (y 0).val = (y 0).val; rw [e2]; omega
  | ⟨1, _⟩ => show win1_1.index t (1 : Fin 2) * 64 + 1 * (y 1).val = (y 1).val; rw [e3]; omega

/-- The bias's block at any point is the whole bias row. -/
theorem bias_eq (c : Dev nD) (t : Fin cfg1.N) :
    (iblk1 V c 2 t : S1x64.Idx → EReal) = (V c main_v22 : S1x64.Idx → EReal) := by
  obtain ⟨-, -, -, -, e4, e5, -⟩ := idx_facts t
  funext y
  unfold iblk1
  rw [View.read_apply]
  show (V c main_v22 : S1x64.Idx → EReal) _ = _
  refine congrArg _ (funext fun a => Fin.ext ?_)
  match a with
  | ⟨0, _⟩ => show win1_2.index t (0 : Fin 2) * 1 + 1 * (y 0).val = (y 0).val; rw [e4]; omega
  | ⟨1, _⟩ => show win1_2.index t (1 : Fin 2) * 64 + 1 * (y 1).val = (y 1).val; rw [e5]; omega

/-- What point t writes back is block t of G. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S5000x64) hz, View.ld_unit_zero (S := S64x64) hz, View.ld_unit_zero (S := S1x64) hz]
  funext y
  obtain ⟨p, q, rfl⟩ : ∃ (p : Fin 5000) (q : Fin 64), y = ix2 p q := ⟨y 0, y 1, eq_ix2 y⟩
  obtain ⟨-, -, -, -, -, -, e6, e7⟩ := idx_facts t
  have ht : t.val < 10 := lt_of_lt_of_eq t.isLt N_1
  have hemb : ((cfg1.win 3).blk t).view.emb (ix2 p q)
      = ix2 (⟨t.val * 5000 + p.val, by have := p.isLt; omega⟩ : Fin 50000) q := funext fun a => Fin.ext (by
    match a with
    | ⟨0, _⟩ => show win1_3.index t (0 : Fin 2) * 5000 + 1 * p.val = t.val * 5000 + p.val; rw [e6]; omega
    | ⟨1, _⟩ => show win1_3.index t (1 : Fin 2) * 64 + 1 * q.val = q.val; rw [e7]; omega)
  rw [View.read_apply, hemb]
  refine (congrFun (pay_eq (iblk1 V c 0 t) (iblk1 V c 1 t) (iblk1 V c 2 t)) (ix2 p q)).trans ?_
  rw [weights_eq V c t, bias_eq V c t]
  exact reluDense_row _ _ _ _ p _ q fun k => rows_apply V c t p k _ rfl

/-- An index of the array is in point t's block iff each coordinate is in the block's range on its axis. -/
theorem mem_blk (t : Fin cfg1.N) (i : S50000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v23).slice (win1_3.rect t)).set ↔ _
  rw [View.set_slice_whole, Rect.mem_set_unit]
  exact Iff.rfl

/-- The ten blocks tile the array: row r lies in the block of point r / 5000. -/
theorem cover (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  obtain ⟨-, -, -, -, -, -, e6, e7⟩ := idx_facts t
  have e6' : win1_3.index t (0 : Fin 2) = (i 0).val / 5000 := e6
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    rw [e6']; omega
  | ⟨1, _⟩ =>
    show win1_3.index t (1 : Fin 2) * 64 ≤ (i 1).val ∧ (i 1).val < win1_3.index t (1 : Fin 2) * 64 + 64
    rw [e7]; omega

/-- The region's output array after its ten write-backs is the hidden layer of all rows. -/
theorem final (c : Dev nD) : (dat1 V c).arrAt 3 cfg1.N = G V c :=
  (dat1 V c).arrAt_eq_of_cover 3 (G V c) (fun t _ => flushed_eq V c t) cover

end Cert.KernelIdeal.Region1

end
-- ==== Proof.Region2.lean ====
/-
  The last layer's kernel region, read as one function of the arrays it is entered with.

  The region walks over ten blocks of 5000 node rows.  At point t it reads rows 5000 t .. 5000 t + 4999 of the
  aggregated second hidden layer, the whole [64, 32] weight matrix and the bias row, and writes the log-softmax of
  each row of x w + b to the same rows of its output.  The log-softmax of a row of x w + b depends on that row of x
  only (the row's maximum and the row's sum of exponentials are taken inside the row), so what the ten write-backs
  leave is the last layer of ALL rows: block t of that one array function is what point t wrote, and the ten blocks
  tile the array.  Everything is stated for any contents V the region may be entered with.
-/
import proofs.«159971_j35450660062089_1_alg».proof.Proof.Gen.KernelIdeal.Frame
import proofs.«159971_j35450660062089_1_alg».proof.Proof.LibLayers
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.LibLayers Cert.LibDense

variable (V : (c : Dev nD) → (b : Ref sig .tc) → Buf (Elt Ideal) ((c : Thread nD τ).loc b))

theorem hz : (![0, 0] : Fin 2 → Nat) = fun _ => 0 := funext fun a => by fin_cases a <;> rfl

/-- What the body stores: the log-softmax of each row of the dense map of the rows it loaded, the bias taken from the
    one-row block. -/
theorem pay_eq (x0 : FVec Ideal S5000x64 .f32) (x1 : FVec Ideal S64x32 .f32) (x2 : FVec Ideal S1x32 .f32) :
    k2_pay1 (F := Ideal) x0 x1 x2 = lsmDense 5000 64 32 x0 x1 (rowVec x2) :=
  lsmDense_kernel (A := 5000) (K := 64) (N := 32) x0 x1 x2 _ bitsLt_bf16_f32 shapeCasts_S5000x64_S5000x64
    shapeCasts_S1x32_S1x32 broadcasts_S1x32_S5000x32 rfl reduces_S5000x32_S5000 (.inl rfl) rfl rfl
    shapeCasts_S5000_S5000x1 broadcasts_S5000x1_S5000x32

/-- The array the region leaves: the last layer of all the rows it was entered with. -/
def G (c : Dev nD) : S50000x32.Idx → EReal :=
  lsmDense 50000 64 32 (V c main_v33 : S50000x64.Idx → EReal) (V c main_arg5 : S64x32.Idx → EReal)
    (rowVec (V c main_v34 : S1x32.Idx → EReal))

/-- The printed index maps over the grid: the rows' windows move with the point, the weights' and the bias's stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of the input block at point t is row 5000 t + p of the array. -/
theorem rows_apply (c : Dev nD) (t : Fin cfg2.N) (p : Fin 5000) (k : Fin 64) (r : Fin 50000)
    (hr : r.val = t.val * 5000 + p.val) :
    (iblk2 V c 0 t : S5000x64.Idx → EReal) (ix2 p k) = (V c main_v33 : S50000x64.Idx → EReal) (ix2 r k) := by
  obtain ⟨e0, e1, -⟩ := idx_facts t
  unfold iblk2
  rw [View.read_apply]
  show (V c main_v33 : S50000x64.Idx → EReal) _ = _
  refine congrArg _ (funext fun a => Fin.ext ?_)
  match a with
  | ⟨0, _⟩ => show win2_0.index t (0 : Fin 2) * 5000 + 1 * p.val = r.val; rw [e0, hr]; omega
  | ⟨1, _⟩ => show win2_0.index t (1 : Fin 2) * 64 + 1 * k.val = k.val; rw [e1]; omega

/-- The weights' block at any point is the whole weight matrix. -/
theorem weights_eq (c : Dev nD) (t : Fin cfg2.N) :
    (iblk2 V c 1 t : S64x32.Idx → EReal) = (V c main_arg5 : S64x32.Idx → EReal) := by
  obtain ⟨-, -, e2, e3, -⟩ := idx_facts t
  funext y
  unfold iblk2
  rw [View.read_apply]
  show (V c main_arg5 : S64x32.Idx → EReal) _ = _
  refine congrArg _ (funext fun a => Fin.ext ?_)
  match a with
  | ⟨0, _⟩ => show win2_1.index t (0 : Fin 2) * 64 + 1 * (y 0).val = (y 0).val; rw [e2]; omega
  | ⟨1, _⟩ => show win2_1.index t (1 : Fin 2) * 32 + 1 * (y 1).val = (y 1).val; rw [e3]; omega

/-- The bias's block at any point is the whole bias row. -/
theorem bias_eq (c : Dev nD) (t : Fin cfg2.N) :
    (iblk2 V c 2 t : S1x32.Idx → EReal) = (V c main_v34 : S1x32.Idx → EReal) := by
  obtain ⟨-, -, -, -, e4, e5, -⟩ := idx_facts t
  funext y
  unfold iblk2
  rw [View.read_apply]
  show (V c main_v34 : S1x32.Idx → EReal) _ = _
  refine congrArg _ (funext fun a => Fin.ext ?_)
  match a with
  | ⟨0, _⟩ => show win2_2.index t (0 : Fin 2) * 1 + 1 * (y 0).val = (y 0).val; rw [e4]; omega
  | ⟨1, _⟩ => show win2_2.index t (1 : Fin 2) * 32 + 1 * (y 1).val = (y 1).val; rw [e5]; omega

/-- What point t writes back is block t of G. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S5000x64) hz, View.ld_unit_zero (S := S64x32) hz, View.ld_unit_zero (S := S1x32) hz]
  funext y
  obtain ⟨p, q, rfl⟩ : ∃ (p : Fin 5000) (q : Fin 32), y = ix2 p q := ⟨y 0, y 1, eq_ix2 y⟩
  obtain ⟨-, -, -, -, -, -, e6, e7⟩ := idx_facts t
  have ht : t.val < 10 := lt_of_lt_of_eq t.isLt N_2
  have hemb : ((cfg2.win 3).blk t).view.emb (ix2 p q)
      = ix2 (⟨t.val * 5000 + p.val, by have := p.isLt; omega⟩ : Fin 50000) q := funext fun a => Fin.ext (by
    match a with
    | ⟨0, _⟩ => show win2_3.index t (0 : Fin 2) * 5000 + 1 * p.val = t.val * 5000 + p.val; rw [e6]; omega
    | ⟨1, _⟩ => show win2_3.index t (1 : Fin 2) * 32 + 1 * q.val = q.val; rw [e7]; omega)
  rw [View.read_apply, hemb]
  refine (congrFun (pay_eq (iblk2 V c 0 t) (iblk2 V c 1 t) (iblk2 V c 2 t)) (ix2 p q)).trans ?_
  rw [weights_eq V c t, bias_eq V c t]
  exact lsmDense_row _ _ _ _ p _ q fun k => rows_apply V c t p k _ rfl

/-- An index of the array is in point t's block iff each coordinate is in the block's range on its axis. -/
theorem mem_blk (t : Fin cfg2.N) (i : S50000x32.Idx) :
    i ∈ ((cfg2.win 3).blk t).view.set ↔ ∀ a : Fin 2, win2_3.index t a * S5000x32.size a ≤ (i a).val
      ∧ (i a).val < win2_3.index t a * S5000x32.size a + S5000x32.size a := by
  show i ∈ ((View.whole main_v35).slice (win2_3.rect t)).set ↔ _
  rw [View.set_slice_whole, Rect.mem_set_unit]
  exact Iff.rfl

/-- The ten blocks tile the array: row r lies in the block of point r / 5000. -/
theorem cover (i : S50000x32.Idx) : ∃ t : Fin cfg2.N, (cfg2.win 3).flush t = true ∧ i ∈ ((cfg2.win 3).blk t).view.set := by
  have hi0 : (i 0).val < 50000 := (i 0).isLt
  have hi1 : (i 1).val < 32 := (i 1).isLt
  have hN : cfg2.N = 10 := N_2
  let t : Fin cfg2.N := ⟨(i 0).val / 5000, by rw [hN]; omega⟩
  obtain ⟨-, -, -, -, -, -, e6, e7⟩ := idx_facts t
  have e6' : win2_3.index t (0 : Fin 2) = (i 0).val / 5000 := e6
  refine ⟨t, flush2_3 t, ?_⟩
  rw [mem_blk]
  intro a
  match a with
  | ⟨0, _⟩ =>
    show win2_3.index t (0 : Fin 2) * 5000 ≤ (i 0).val ∧ (i 0).val < win2_3.index t (0 : Fin 2) * 5000 + 5000
    rw [e6']; omega
  | ⟨1, _⟩ =>
    show win2_3.index t (1 : Fin 2) * 32 ≤ (i 1).val ∧ (i 1).val < win2_3.index t (1 : Fin 2) * 32 + 32
    rw [e7]; omega

/-- The region's output array after its ten write-backs is the last layer of all rows. -/
theorem final (c : Dev nD) : (dat2 V c).arrAt 3 cfg2.N = G V c :=
  (dat2 V c).arrAt_eq_of_cover 3 (G V c) (fun t _ => flushed_eq V c t) cover

end Cert.KernelIdeal.Region2

end
-- ==== Proof.Network.lean ====
/-
  The graph network as one function of its nine arguments, at the ideal values.

  A layer first sums, into every node, the rows of the nodes its incoming edges come from: the rows h[src[e]] are
  gathered (a negative source index wrapped once by the number of nodes, as jnp indexing does) and scatter-added at
  dst[e] into a zero matrix.  Both programs spell this aggregation with the same host operations, so it is kept here as
  ONE function `agg` of the node matrix and the two index vectors and is never opened: whatever a gather or a
  scatter-add does with an index outside the matrix, it does the same on both sides.  The network is then

      logSoftmax (dense (agg (relu (dense (agg (relu (dense (agg x)))))))).
-/
import proofs.«159971_j35450660062089_1_alg».proof.ReferenceIdeal
import proofs.«159971_j35450660062089_1_alg».proof.Proof.Gen.ReferenceIdeal
import proofs.«159971_j35450660062089_1_alg».proof.Proof.LibLayers

noncomputable section

namespace Cert.Network

open Cert.ReferenceIdeal Cert.ReferenceIdeal.Gen Idealize.ShloMosaic Cert.LibLayers

/-- The neighbours' rows summed into each node. -/
def agg (h : FVec Ideal S50000x64 .f32) (s d : IVec S1300000 32) : FVec Ideal S50000x64 .f32 :=
  Host.scatterAdd scatter_S50000x64_S1300000x1_S1300000x64_1_0_0_1
    (broadcastInDim S50000x64 ![] bcast_S_S50000x64 (constant (F := Ideal) S_ .f32 0x00000000#32))
    (broadcastInDim S1300000x1 ![0] bcast_S1300000_S1300000x1_0 d)
    (Host.gather gather_S50000x64_S1300000x1_S1300000x64_1_0_n_n_0_1_164 h
      (broadcastInDim S1300000x1 ![0] bcast_S1300000_S1300000x1_0
        (select (cmpi .slt s (broadcastInDim S1300000 ![] bcast_S_S1300000 (constantI S_ 32 0#32)))
          (addi s (broadcastInDim S1300000 ![] bcast_S_S1300000 (constantI S_ 32 50000#32))) s)))

/-- The three layers: features x0, weights and biases (x1, x2), (x3, x4), (x5, x6), edge sources x7 and targets x8. -/
def network (x0 : FVec Ideal S50000x64 .f32) (x1 : FVec Ideal S64x64 .f32) (x2 : FVec Ideal S64 .f32)
    (x3 : FVec Ideal S64x64 .f32) (x4 : FVec Ideal S64 .f32) (x5 : FVec Ideal S64x32 .f32) (x6 : FVec Ideal S32 .f32)
    (x7 x8 : IVec S1300000 32) : FVec Ideal S50000x32 .f32 :=
  lsmDense 50000 64 32
    (agg (reluDense 50000 64 64 (agg (reluDense 50000 64 64 (agg x0 x7 x8) x1 x2) x7 x8) x3 x4) x7 x8) x5 x6

end Cert.Network

end
-- ==== Proof.KernelValue.lean ====
/-
  The idealized kernel program's result as the network function of its arguments, read through the run's fold.

  The contents of the buffers at the six segment boundaries are a fold from the launch memory.  A host stretch before
  a region writes three things the region reads or passes on: the aggregation of the previous layer's rows (the shared
  chain `agg`, on the launch contents of the two index vectors), the layer's bias reshaped to one row, and nothing
  else; the layer's weight matrix it leaves alone.  A region replaces its output array by what its ten write-backs
  leave, which is the layer applied to all rows of what it was entered with, and keeps every other buffer.  No stretch
  and no region writes an argument buffer, so wherever the fold is read at an argument it is the launch memory.
  Composing the three stretches and the three regions gives the network function of the nine arguments.
-/
import proofs.«159971_j35450660062089_1_alg».proof.Proof.Gen.KernelIdeal.Frame
import proofs.«159971_j35450660062089_1_alg».proof.Proof.Region0
import proofs.«159971_j35450660062089_1_alg».proof.Proof.Region1
import proofs.«159971_j35450660062089_1_alg».proof.Proof.Region2
import proofs.«159971_j35450660062089_1_alg».proof.Proof.Network
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo Cert.LibLayers Cert.Network

variable (m : (ℓ : Loc nD τ sig) → Buf (Elt Ideal) ℓ) (ρ : Dev nD → PrngReg)

/-- Closes "this stretch of host operations leaves buffer b as it was": b is none of the buffers the stretch writes. -/
local macro "unwritten" : tactic => `(tactic| (
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The argument buffers along the fold -/

theorem W1_a1 (c : Dev nD) : W1 m ρ c (Proc.devRef .tc main_arg1) = m ((c : Thread nD τ).loc main_arg1) := by
  show StableHlo.after hostOps0 (W0 m ρ c) (Proc.devRef .tc main_arg1) = W0 m ρ c (Proc.devRef .tc main_arg1)
  unwritten
theorem W1_a3 (c : Dev nD) : W1 m ρ c (Proc.devRef .tc main_arg3) = m ((c : Thread nD τ).loc main_arg3) := by
  show StableHlo.after hostOps0 (W0 m ρ c) (Proc.devRef .tc main_arg3) = W0 m ρ c (Proc.devRef .tc main_arg3)
  unwritten
theorem W1_a4 (c : Dev nD) : W1 m ρ c (Proc.devRef .tc main_arg4) = m ((c : Thread nD τ).loc main_arg4) := by
  show StableHlo.after hostOps0 (W0 m ρ c) (Proc.devRef .tc main_arg4) = W0 m ρ c (Proc.devRef .tc main_arg4)
  unwritten
theorem W1_a5 (c : Dev nD) : W1 m ρ c (Proc.devRef .tc main_arg5) = m ((c : Thread nD τ).loc main_arg5) := by
  show StableHlo.after hostOps0 (W0 m ρ c) (Proc.devRef .tc main_arg5) = W0 m ρ c (Proc.devRef .tc main_arg5)
  unwritten
theorem W1_a6 (c : Dev nD) : W1 m ρ c (Proc.devRef .tc main_arg6) = m ((c : Thread nD τ).loc main_arg6) := by
  show StableHlo.after hostOps0 (W0 m ρ c) (Proc.devRef .tc main_arg6) = W0 m ρ c (Proc.devRef .tc main_arg6)
  unwritten
theorem W1_a7 (c : Dev nD) : W1 m ρ c (Proc.devRef .tc main_arg7) = m ((c : Thread nD τ).loc main_arg7) := by
  show StableHlo.after hostOps0 (W0 m ρ c) (Proc.devRef .tc main_arg7) = W0 m ρ c (Proc.devRef .tc main_arg7)
  unwritten
theorem W1_a8 (c : Dev nD) : W1 m ρ c (Proc.devRef .tc main_arg8) = m ((c : Thread nD τ).loc main_arg8) := by
  show StableHlo.after hostOps0 (W0 m ρ c) (Proc.devRef .tc main_arg8) = W0 m ρ c (Proc.devRef .tc main_arg8)
  unwritten
theorem W2_a3 (c : Dev nD) : W2 m ρ c (Proc.devRef .tc main_arg3) = m ((c : Thread nD τ).loc main_arg3) :=
  (W2_of_ne m ρ c main_arg3 (by decide)).trans (W1_a3 m ρ c)
theorem W2_a4 (c : Dev nD) : W2 m ρ c (Proc.devRef .tc main_arg4) = m ((c : Thread nD τ).loc main_arg4) :=
  (W2_of_ne m ρ c main_arg4 (by decide)).trans (W1_a4 m ρ c)
theorem W2_a5 (c : Dev nD) : W2 m ρ c (Proc.devRef .tc main_arg5) = m ((c : Thread nD τ).loc main_arg5) :=
  (W2_of_ne m ρ c main_arg5 (by decide)).trans (W1_a5 m ρ c)
theorem W2_a6 (c : Dev nD) : W2 m ρ c (Proc.devRef .tc main_arg6) = m ((c : Thread nD τ).loc main_arg6) :=
  (W2_of_ne m ρ c main_arg6 (by decide)).trans (W1_a6 m ρ c)
theorem W2_a7 (c : Dev nD) : W2 m ρ c (Proc.devRef .tc main_arg7) = m ((c : Thread nD τ).loc main_arg7) :=
  (W2_of_ne m ρ c main_arg7 (by decide)).trans (W1_a7 m ρ c)
theorem W2_a8 (c : Dev nD) : W2 m ρ c (Proc.devRef .tc main_arg8) = m ((c : Thread nD τ).loc main_arg8) :=
  (W2_of_ne m ρ c main_arg8 (by decide)).trans (W1_a8 m ρ c)
theorem W3_a3 (c : Dev nD) : W3 m ρ c (Proc.devRef .tc main_arg3) = m ((c : Thread nD τ).loc main_arg3) := by
  refine Eq.trans ?_ (W2_a3 m ρ c)
  show StableHlo.after hostOps1 (W2 m ρ c) (Proc.devRef .tc main_arg3) = W2 m ρ c (Proc.devRef .tc main_arg3)
  unwritten
theorem W3_a5 (c : Dev nD) : W3 m ρ c (Proc.devRef .tc main_arg5) = m ((c : Thread nD τ).loc main_arg5) := by
  refine Eq.trans ?_ (W2_a5 m ρ c)
  show StableHlo.after hostOps1 (W2 m ρ c) (Proc.devRef .tc main_arg5) = W2 m ρ c (Proc.devRef .tc main_arg5)
  unwritten
theorem W3_a6 (c : Dev nD) : W3 m ρ c (Proc.devRef .tc main_arg6) = m ((c : Thread nD τ).loc main_arg6) := by
  refine Eq.trans ?_ (W2_a6 m ρ c)
  show StableHlo.after hostOps1 (W2 m ρ c) (Proc.devRef .tc main_arg6) = W2 m ρ c (Proc.devRef .tc main_arg6)
  unwritten
theorem W3_a7 (c : Dev nD) : W3 m ρ c (Proc.devRef .tc main_arg7) = m ((c : Thread nD τ).loc main_arg7) := by
  refine Eq.trans ?_ (W2_a7 m ρ c)
  show StableHlo.after hostOps1 (W2 m ρ c) (Proc.devRef .tc main_arg7) = W2 m ρ c (Proc.devRef .tc main_arg7)
  unwritten
theorem W3_a8 (c : Dev nD) : W3 m ρ c (Proc.devRef .tc main_arg8) = m ((c : Thread nD τ).loc main_arg8) := by
  refine Eq.trans ?_ (W2_a8 m ρ c)
  show StableHlo.after hostOps1 (W2 m ρ c) (Proc.devRef .tc main_arg8) = W2 m ρ c (Proc.devRef .tc main_arg8)
  unwritten
theorem W4_a5 (c : Dev nD) : W4 m ρ c (Proc.devRef .tc main_arg5) = m ((c : Thread nD τ).loc main_arg5) :=
  (W4_of_ne m ρ c main_arg5 (by decide)).trans (W3_a5 m ρ c)
theorem W4_a6 (c : Dev nD) : W4 m ρ c (Proc.devRef .tc main_arg6) = m ((c : Thread nD τ).loc main_arg6) :=
  (W4_of_ne m ρ c main_arg6 (by decide)).trans (W3_a6 m ρ c)
theorem W4_a7 (c : Dev nD) : W4 m ρ c (Proc.devRef .tc main_arg7) = m ((c : Thread nD τ).loc main_arg7) :=
  (W4_of_ne m ρ c main_arg7 (by decide)).trans (W3_a7 m ρ c)
theorem W4_a8 (c : Dev nD) : W4 m ρ c (Proc.devRef .tc main_arg8) = m ((c : Thread nD τ).loc main_arg8) :=
  (W4_of_ne m ρ c main_arg8 (by decide)).trans (W3_a8 m ρ c)
theorem W5_a5 (c : Dev nD) : W5 m ρ c (Proc.devRef .tc main_arg5) = m ((c : Thread nD τ).loc main_arg5) := by
  refine Eq.trans ?_ (W4_a5 m ρ c)
  show StableHlo.after hostOps2 (W4 m ρ c) (Proc.devRef .tc main_arg5) = W4 m ρ c (Proc.devRef .tc main_arg5)
  unwritten

/-! ## The first layer -/

/-- The first stretch leaves the aggregation of the features. -/
theorem V1_agg (c : Dev nD) : (V1 m ρ c main_v9 : FVec Ideal S50000x64 .f32)
    = agg (m ((c : Thread nD τ).loc main_arg0)) (m ((c : Thread nD τ).loc main_arg7)) (m ((c : Thread nD τ).loc main_arg8)) := by
  show StableHlo.after hostOps0 (W0 m ρ c) (Proc.devRef .tc main_v9) = _
  after_results
  rfl

/-- ... and the first bias as one row. -/
theorem V1_bias (c : Dev nD) : rowVec (V1 m ρ c main_v10 : S1x64.Idx → EReal) = m ((c : Thread nD τ).loc main_arg2) := by
  show rowVec (StableHlo.after hostOps0 (W0 m ρ c) (Proc.devRef .tc main_v10) : S1x64.Idx → EReal) = _
  after_results
  exact rowVec_shapeCast _ _

/-- The first region leaves the first hidden layer of all rows. -/
theorem W2_hidden (c : Dev nD) : (W2 m ρ c (Proc.devRef .tc main_v11) : FVec Ideal S50000x64 .f32)
    = reluDense 50000 64 64 (agg (m ((c : Thread nD τ).loc main_arg0)) (m ((c : Thread nD τ).loc main_arg7)) (m ((c : Thread nD τ).loc main_arg8))) (m ((c : Thread nD τ).loc main_arg1)) (m ((c : Thread nD τ).loc main_arg2)) := by
  refine ((W2_arr m ρ c 3).trans (Region0.final (V1 m ρ) c)).trans ?_
  unfold Region0.G
  rw [V1_agg m ρ c, V1_bias m ρ c]
  exact congrArg (fun w => reluDense 50000 64 64 _ w _) (W1_a1 m ρ c)

/-! ## The second layer -/

theorem V3_agg (c : Dev nD) : (V3 m ρ c main_v21 : FVec Ideal S50000x64 .f32)
    = agg (W2 m ρ c (Proc.devRef .tc main_v11)) (W2 m ρ c (Proc.devRef .tc main_arg7)) (W2 m ρ c (Proc.devRef .tc main_arg8)) := by
  show StableHlo.after hostOps1 (W2 m ρ c) (Proc.devRef .tc main_v21) = _
  after_results
  rfl

theorem V3_bias (c : Dev nD) : rowVec (V3 m ρ c main_v22 : S1x64.Idx → EReal) = W2 m ρ c (Proc.devRef .tc main_arg4) := by
  show rowVec (StableHlo.after hostOps1 (W2 m ρ c) (Proc.devRef .tc main_v22) : S1x64.Idx → EReal) = _
  after_results
  exact rowVec_shapeCast _ _

/-- The second region leaves the second hidden layer of all rows. -/
theorem W4_hidden (c : Dev nD) : (W4 m ρ c (Proc.devRef .tc main_v23) : FVec Ideal S50000x64 .f32)
    = reluDense 50000 64 64 (agg (W2 m ρ c (Proc.devRef .tc main_v11)) (m ((c : Thread nD τ).loc main_arg7)) (m ((c : Thread nD τ).loc main_arg8))) (m ((c : Thread nD τ).loc main_arg3)) (m ((c : Thread nD τ).loc main_arg4)) := by
  refine ((W4_arr m ρ c 3).trans (Region1.final (V3 m ρ) c)).trans ?_
  unfold Region1.G
  rw [V3_agg m ρ c, V3_bias m ρ c, W2_a7 m ρ c, W2_a8 m ρ c, W2_a4 m ρ c]
  exact congrArg (fun w => reluDense 50000 64 64 _ w _) (W3_a3 m ρ c)

/-! ## The last layer -/

theorem V5_agg (c : Dev nD) : (V5 m ρ c main_v33 : FVec Ideal S50000x64 .f32)
    = agg (W4 m ρ c (Proc.devRef .tc main_v23)) (W4 m ρ c (Proc.devRef .tc main_arg7)) (W4 m ρ c (Proc.devRef .tc main_arg8)) := by
  show StableHlo.after hostOps2 (W4 m ρ c) (Proc.devRef .tc main_v33) = _
  after_results
  rfl

theorem V5_bias (c : Dev nD) : rowVec (V5 m ρ c main_v34 : S1x32.Idx → EReal) = W4 m ρ c (Proc.devRef .tc main_arg6) := by
  show rowVec (StableHlo.after hostOps2 (W4 m ρ c) (Proc.devRef .tc main_v34) : S1x32.Idx → EReal) = _
  after_results
  exact rowVec_shapeCast _ _

/-- The last region leaves the last layer of all rows. -/
theorem W6_last (c : Dev nD) : (W6 m ρ c (Proc.devRef .tc main_v35) : FVec Ideal S50000x32 .f32)
    = lsmDense 50000 64 32 (agg (W4 m ρ c (Proc.devRef .tc main_v23)) (m ((c : Thread nD τ).loc main_arg7)) (m ((c : Thread nD τ).loc main_arg8))) (m ((c : Thread nD τ).loc main_arg5)) (m ((c : Thread nD τ).loc main_arg6)) := by
  refine ((W6_arr m ρ c 3).trans (Region2.final (V5 m ρ) c)).trans ?_
  unfold Region2.G
  rw [V5_agg m ρ c, V5_bias m ρ c, W4_a7 m ρ c, W4_a8 m ρ c, W4_a6 m ρ c]
  exact congrArg (fun w => lsmDense 50000 64 32 _ w _) (W5_a5 m ρ c)

/-! ## The program -/

/-- The result buffer at the last boundary is the network function of the launch contents of the nine arguments. -/
theorem result (c : Dev nD) : (W6 m ρ c (Proc.devRef .tc main_v35) : FVec Ideal S50000x32 .f32)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [W6_last m ρ c, W4_hidden m ρ c, W2_hidden m ρ c]
  rfl

end Cert.KernelIdeal.Fold

end
-- ==== Proof.RefValue.lean ====
/-
  The idealized reference's result as the network function of its arguments, read off its run stage by stage.

  The reference is a straight line of 72 host operations; its run leaves every buffer at the fold of those operations
  over the launch contents.  The line is cut into the three layers' stretches, and a fold over a concatenation is the
  fold of the second part over the fold of the first, so the contents between two layers can stay a variable: each
  stretch is read once, for ANY contents it starts from, as "this layer of the buffer the previous stretch wrote", and
  no stretch writes an argument buffer.  Two of jax's helper functions are inlined in the line (relu and log_softmax);
  their operations move values between a buffer's own type and the value's type along an equation that is `rfl`, which
  each stretch's reading sees through.
-/
import proofs.«159971_j35450660062089_1_alg».proof.Proof.RefRun
import proofs.«159971_j35450660062089_1_alg».proof.Proof.Network
import Idealize.ShloMosaic.Lib.Pipeline.Frame
import Idealize.ShloMosaic.Lib.StableHlo.Run

set_option maxRecDepth 16384

noncomputable section

namespace Cert.ReferenceIdeal.Stages

open Cert.ReferenceIdeal Cert.ReferenceIdeal.Gen Idealize.ShloMosaic Idealize.ShloMosaic.TcCoe Idealize.SL.Sem
open Idealize.ShloMosaic.StableHlo Cert.LibLayers Cert.LibDense Cert.Network

section Lists

variable {F : FTy → Type} [FloatOps F]

/-- The first layer's operations: the neighbours' rows gathered and summed into each node, the dense map, relu. -/
abbrev opsA : List (HloOp τ sig (Elt F)) :=
  [ nullary main_c (constantI S_ 32 0#32),
    unary main_c main_v0 (broadcastInDim S1300000 ![] bcast_S_S1300000 : (⟨S_, .i32⟩ : BufTy).Contents (Elt F) → (⟨S1300000, .i32⟩ : BufTy).Contents (Elt F)),
    binary main_arg7 main_v0 main_v1 (cmpi .slt : (⟨S1300000, .i32⟩ : BufTy).Contents (Elt F) → (⟨S1300000, .i32⟩ : BufTy).Contents (Elt F) → (⟨S1300000, .i1⟩ : BufTy).Contents (Elt F)),
    nullary main_c_0 (constantI S_ 32 50000#32),
    unary main_c_0 main_v2 (broadcastInDim S1300000 ![] bcast_S_S1300000 : (⟨S_, .i32⟩ : BufTy).Contents (Elt F) → (⟨S1300000, .i32⟩ : BufTy).Contents (Elt F)),
    binary main_arg7 main_v2 main_v3 (addi : (⟨S1300000, .i32⟩ : BufTy).Contents (Elt F) → (⟨S1300000, .i32⟩ : BufTy).Contents (Elt F) → (⟨S1300000, .i32⟩ : BufTy).Contents (Elt F)),
    ternary main_v1 main_v3 main_arg7 main_v4 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    unary main_v4 main_v5 (broadcastInDim S1300000x1 ![0] bcast_S1300000_S1300000x1_0 : (⟨S1300000, .i32⟩ : BufTy).Contents (Elt F) → (⟨S1300000x1, .i32⟩ : BufTy).Contents (Elt F)),
    binary main_arg0 main_v5 main_v6 ((fun x i => Host.gather gather_S50000x64_S1300000x1_S1300000x64_1_0_n_n_0_1_164 x i) : (⟨S50000x64, .f32⟩ : BufTy).Contents (Elt F) → (⟨S1300000x1, .i32⟩ : BufTy).Contents (Elt F) → (⟨S1300000x64, .f32⟩ : BufTy).Contents (Elt F)),
    nullary main_cst (constant S_ .f32 0x00000000#32),
    unary main_cst main_v7 (broadcastInDim S50000x64 ![] bcast_S_S50000x64 : (⟨S_, .f32⟩ : BufTy).Contents (Elt F) → (⟨S50000x64, .f32⟩ : BufTy).Contents (Elt F)),
    unary main_arg8 main_v8 (broadcastInDim S1300000x1 ![0] bcast_S1300000_S1300000x1_0 : (⟨S1300000, .i32⟩ : BufTy).Contents (Elt F) → (⟨S1300000x1, .i32⟩ : BufTy).Contents (Elt F)),
    ternary main_v7 main_v8 main_v6 main_v9 ((fun x i u => Host.scatterAdd scatter_S50000x64_S1300000x1_S1300000x64_1_0_0_1 x i u) : (⟨S50000x64, .f32⟩ : BufTy).Contents (Elt F) → (⟨S1300000x1, .i32⟩ : BufTy).Contents (Elt F) → (⟨S1300000x64, .f32⟩ : BufTy).Contents (Elt F) → (⟨S50000x64, .f32⟩ : BufTy).Contents (Elt F)),
    binary main_v9 main_arg1 main_v10 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg2 main_v11 (broadcastInDim S1x64 ![1] bcast_S64_S1x64_1 : (⟨S64, .f32⟩ : BufTy).Contents (Elt F) → (⟨S1x64, .f32⟩ : BufTy).Contents (Elt F)),
    unary main_v11 main_v12 (broadcastInDim S50000x64 ![0, 1] bcast_S1x64_S50000x64_0_1 : (⟨S1x64, .f32⟩ : BufTy).Contents (Elt F) → (⟨S50000x64, .f32⟩ : BufTy).Contents (Elt F)),
    binary main_v10 main_v12 main_v13 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v13) (TRef.of (T := ⟨S50000x64, .f32⟩) main_call0_v0) (TRef.of (T := ⟨S50000x64, .f32⟩) main_v14) maximumf ]

/-- The second layer's operations, the same on the first layer's result. -/
abbrev opsB : List (HloOp τ sig (Elt F)) :=
  [ nullary main_c_1 (constantI S_ 32 0#32),
    unary main_c_1 main_v15 (broadcastInDim S1300000 ![] bcast_S_S1300000 : (⟨S_, .i32⟩ : BufTy).Contents (Elt F) → (⟨S1300000, .i32⟩ : BufTy).Contents (Elt F)),
    binary main_arg7 main_v15 main_v16 (cmpi .slt : (⟨S1300000, .i32⟩ : BufTy).Contents (Elt F) → (⟨S1300000, .i32⟩ : BufTy).Contents (Elt F) → (⟨S1300000, .i1⟩ : BufTy).Contents (Elt F)),
    nullary main_c_2 (constantI S_ 32 50000#32),
    unary main_c_2 main_v17 (broadcastInDim S1300000 ![] bcast_S_S1300000 : (⟨S_, .i32⟩ : BufTy).Contents (Elt F) → (⟨S1300000, .i32⟩ : BufTy).Contents (Elt F)),
    binary main_arg7 main_v17 main_v18 (addi : (⟨S1300000, .i32⟩ : BufTy).Contents (Elt F) → (⟨S1300000, .i32⟩ : BufTy).Contents (Elt F) → (⟨S1300000, .i32⟩ : BufTy).Contents (Elt F)),
    ternary main_v16 main_v18 main_arg7 main_v19 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    unary main_v19 main_v20 (broadcastInDim S1300000x1 ![0] bcast_S1300000_S1300000x1_0 : (⟨S1300000, .i32⟩ : BufTy).Contents (Elt F) → (⟨S1300000x1, .i32⟩ : BufTy).Contents (Elt F)),
    binary main_v14 main_v20 main_v21 ((fun x i => Host.gather gather_S50000x64_S1300000x1_S1300000x64_1_0_n_n_0_1_164 x i) : (⟨S50000x64, .f32⟩ : BufTy).Contents (Elt F) → (⟨S1300000x1, .i32⟩ : BufTy).Contents (Elt F) → (⟨S1300000x64, .f32⟩ : BufTy).Contents (Elt F)),
    nullary main_cst_3 (constant S_ .f32 0x00000000#32),
    unary main_cst_3 main_v22 (broadcastInDim S50000x64 ![] bcast_S_S50000x64 : (⟨S_, .f32⟩ : BufTy).Contents (Elt F) → (⟨S50000x64, .f32⟩ : BufTy).Contents (Elt F)),
    unary main_arg8 main_v23 (broadcastInDim S1300000x1 ![0] bcast_S1300000_S1300000x1_0 : (⟨S1300000, .i32⟩ : BufTy).Contents (Elt F) → (⟨S1300000x1, .i32⟩ : BufTy).Contents (Elt F)),
    ternary main_v22 main_v23 main_v21 main_v24 ((fun x i u => Host.scatterAdd scatter_S50000x64_S1300000x1_S1300000x64_1_0_0_1 x i u) : (⟨S50000x64, .f32⟩ : BufTy).Contents (Elt F) → (⟨S1300000x1, .i32⟩ : BufTy).Contents (Elt F) → (⟨S1300000x64, .f32⟩ : BufTy).Contents (Elt F) → (⟨S50000x64, .f32⟩ : BufTy).Contents (Elt F)),
    binary main_v24 main_arg3 main_v25 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg4 main_v26 (broadcastInDim S1x64 ![1] bcast_S64_S1x64_1 : (⟨S64, .f32⟩ : BufTy).Contents (Elt F) → (⟨S1x64, .f32⟩ : BufTy).Contents (Elt F)),
    unary main_v26 main_v27 (broadcastInDim S50000x64 ![0, 1] bcast_S1x64_S50000x64_0_1 : (⟨S1x64, .f32⟩ : BufTy).Contents (Elt F) → (⟨S50000x64, .f32⟩ : BufTy).Contents (Elt F)),
    binary main_v25 main_v27 main_v28 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v28) (TRef.of (T := ⟨S50000x64, .f32⟩) main_call1_v0) (TRef.of (T := ⟨S50000x64, .f32⟩) main_v29) maximumf ]

/-- The last layer's operations: the aggregation, the dense map, the log-softmax of each row. -/
abbrev opsC : List (HloOp τ sig (Elt F)) :=
  [ nullary main_c_4 (constantI S_ 32 0#32),
    unary main_c_4 main_v30 (broadcastInDim S1300000 ![] bcast_S_S1300000 : (⟨S_, .i32⟩ : BufTy).Contents (Elt F) → (⟨S1300000, .i32⟩ : BufTy).Contents (Elt F)),
    binary main_arg7 main_v30 main_v31 (cmpi .slt : (⟨S1300000, .i32⟩ : BufTy).Contents (Elt F) → (⟨S1300000, .i32⟩ : BufTy).Contents (Elt F) → (⟨S1300000, .i1⟩ : BufTy).Contents (Elt F)),
    nullary main_c_5 (constantI S_ 32 50000#32),
    unary main_c_5 main_v32 (broadcastInDim S1300000 ![] bcast_S_S1300000 : (⟨S_, .i32⟩ : BufTy).Contents (Elt F) → (⟨S1300000, .i32⟩ : BufTy).Contents (Elt F)),
    binary main_arg7 main_v32 main_v33 (addi : (⟨S1300000, .i32⟩ : BufTy).Contents (Elt F) → (⟨S1300000, .i32⟩ : BufTy).Contents (Elt F) → (⟨S1300000, .i32⟩ : BufTy).Contents (Elt F)),
    ternary main_v31 main_v33 main_arg7 main_v34 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    unary main_v34 main_v35 (broadcastInDim S1300000x1 ![0] bcast_S1300000_S1300000x1_0 : (⟨S1300000, .i32⟩ : BufTy).Contents (Elt F) → (⟨S1300000x1, .i32⟩ : BufTy).Contents (Elt F)),
    binary main_v29 main_v35 main_v36 ((fun x i => Host.gather gather_S50000x64_S1300000x1_S1300000x64_1_0_n_n_0_1_164 x i) : (⟨S50000x64, .f32⟩ : BufTy).Contents (Elt F) → (⟨S1300000x1, .i32⟩ : BufTy).Contents (Elt F) → (⟨S1300000x64, .f32⟩ : BufTy).Contents (Elt F)),
    nullary main_cst_6 (constant S_ .f32 0x00000000#32),
    unary main_cst_6 main_v37 (broadcastInDim S50000x64 ![] bcast_S_S50000x64 : (⟨S_, .f32⟩ : BufTy).Contents (Elt F) → (⟨S50000x64, .f32⟩ : BufTy).Contents (Elt F)),
    unary main_arg8 main_v38 (broadcastInDim S1300000x1 ![0] bcast_S1300000_S1300000x1_0 : (⟨S1300000, .i32⟩ : BufTy).Contents (Elt F) → (⟨S1300000x1, .i32⟩ : BufTy).Contents (Elt F)),
    ternary main_v37 main_v38 main_v36 main_v39 ((fun x i u => Host.scatterAdd scatter_S50000x64_S1300000x1_S1300000x64_1_0_0_1 x i u) : (⟨S50000x64, .f32⟩ : BufTy).Contents (Elt F) → (⟨S1300000x1, .i32⟩ : BufTy).Contents (Elt F) → (⟨S1300000x64, .f32⟩ : BufTy).Contents (Elt F) → (⟨S50000x64, .f32⟩ : BufTy).Contents (Elt F)),
    binary main_v39 main_arg5 main_v40 ((fun l r => Host.dotGeneral dot_S50000x64_S64x32_S50000x32_1_0_0_1_n_n none l r) : (⟨S50000x64, .f32⟩ : BufTy).Contents (Elt F) → (⟨S64x32, .f32⟩ : BufTy).Contents (Elt F) → (⟨S50000x32, .f32⟩ : BufTy).Contents (Elt F)),
    unary main_arg6 main_v41 (broadcastInDim S1x32 ![1] bcast_S32_S1x32_1 : (⟨S32, .f32⟩ : BufTy).Contents (Elt F) → (⟨S1x32, .f32⟩ : BufTy).Contents (Elt F)),
    unary main_v41 main_v42 (broadcastInDim S50000x32 ![0, 1] bcast_S1x32_S50000x32_0_1 : (⟨S1x32, .f32⟩ : BufTy).Contents (Elt F) → (⟨S50000x32, .f32⟩ : BufTy).Contents (Elt F)),
    binary main_v40 main_v42 main_v43 (addf : (⟨S50000x32, .f32⟩ : BufTy).Contents (Elt F) → (⟨S50000x32, .f32⟩ : BufTy).Contents (Elt F) → (⟨S50000x32, .f32⟩ : BufTy).Contents (Elt F)),
    TRef.nullary (TRef.of (T := ⟨S_, .f32⟩) main_call2_cst) (constant S_ .f32 0xFF800000#32),
    TRef.binary (TRef.of (T := ⟨S50000x32, .f32⟩) main_v43) (TRef.of (T := ⟨S_, .f32⟩) main_call2_cst) (TRef.of (T := ⟨S50000, .f32⟩) main_call2_v0) (fun x v => Host.reduce FloatOps.maximumf x v reducesTo_S50000x32_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x32, .f32⟩) main_call2_v4) (broadcastInDim S50000x32 ![0, 1] bcast_S50000x1_S50000x32_0_1),
    TRef.binary (TRef.of (T := ⟨S50000x32, .f32⟩) main_v43) (TRef.of (T := ⟨S50000x32, .f32⟩) main_call2_v4) (TRef.of (T := ⟨S50000x32, .f32⟩) main_call2_v5) subf,
    TRef.unary (TRef.of (T := ⟨S50000x32, .f32⟩) main_call2_v5) (TRef.of (T := ⟨S50000x32, .f32⟩) main_call2_v6) Host.exp,
    TRef.nullary (TRef.of (T := ⟨S_, .f32⟩) main_call2_cst_1) (constant S_ .f32 0x00000000#32),
    TRef.binary (TRef.of (T := ⟨S50000x32, .f32⟩) main_call2_v6) (TRef.of (T := ⟨S_, .f32⟩) main_call2_cst_1) (TRef.of (T := ⟨S50000, .f32⟩) main_call2_v7) (fun x v => Host.reduceAdd x v reducesTo_S50000x32_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x32, .f32⟩) main_call2_v10) (broadcastInDim S50000x32 ![0, 1] bcast_S50000x1_S50000x32_0_1),
    TRef.binary (TRef.of (T := ⟨S50000x32, .f32⟩) main_call2_v5) (TRef.of (T := ⟨S50000x32, .f32⟩) main_call2_v10) (TRef.of (T := ⟨S50000x32, .f32⟩) main_v44) subf ]

/-- The reference's line of operations is the three stretches in order. -/
theorem ops_split : (Cert.ReferenceIdeal.ValueP.ops (F := F)) = opsA ++ (opsB ++ opsC) := rfl

end Lists

/-- A value moved to a buffer's own type and back is the value. -/
theorem ofBuf_toBuf {Val : EltTy → Type} {T : BufTy} (x : TRef sig T) (v : T.Contents Val) : x.ofBuf (x.toBuf v) = v := by
  unfold TRef.ofBuf TRef.toBuf
  rw [cast_cast, cast_eq]

variable (V : Valuation τ sig (Elt Ideal))

/-! ## The first layer's stretch -/

theorem stageA : after (opsA (F := Ideal)) V (Proc.devRef .tc main_v14)
    = reluDense 50000 64 64 (agg (V (Proc.devRef .tc main_arg0)) (V (Proc.devRef .tc main_arg7)) (V (Proc.devRef .tc main_arg8)))
        (V (Proc.devRef .tc main_arg1)) (V (Proc.devRef .tc main_arg2)) := by
  after_results_simp
  have eo : ∀ h1 h2 h3 (v : (⟨S50000x64, .f32⟩ : BufTy).Contents (Elt Ideal)),
      (TRef.of (T := ⟨S50000x64, .f32⟩) main_v14 h1 h2 h3).toBuf v = v := fun _ _ _ _ => rfl
  have ei : ∀ h1 h2 h3 (v : main_v13.ty.Contents (Elt Ideal)),
      (TRef.of (T := ⟨S50000x64, .f32⟩) main_v13 h1 h2 h3).ofBuf v = v := fun _ _ _ _ => rfl
  rw [eo, ei]
  simp only [ofBuf_toBuf]
  exact reluDense_host (A := 50000) (K := 64) (N := 64) _ _ _ bcast_S64_S1x64_1 bcast_S1x64_S50000x64_0_1 bcast_S_S50000x64

theorem keptA3 : after (opsA (F := Ideal)) V (Proc.devRef .tc main_arg3) = V (Proc.devRef .tc main_arg3) := by after_results_simp <;> rfl
theorem keptA4 : after (opsA (F := Ideal)) V (Proc.devRef .tc main_arg4) = V (Proc.devRef .tc main_arg4) := by after_results_simp <;> rfl
theorem keptA5 : after (opsA (F := Ideal)) V (Proc.devRef .tc main_arg5) = V (Proc.devRef .tc main_arg5) := by after_results_simp <;> rfl
theorem keptA6 : after (opsA (F := Ideal)) V (Proc.devRef .tc main_arg6) = V (Proc.devRef .tc main_arg6) := by after_results_simp <;> rfl
theorem keptA7 : after (opsA (F := Ideal)) V (Proc.devRef .tc main_arg7) = V (Proc.devRef .tc main_arg7) := by after_results_simp <;> rfl
theorem keptA8 : after (opsA (F := Ideal)) V (Proc.devRef .tc main_arg8) = V (Proc.devRef .tc main_arg8) := by after_results_simp <;> rfl

/-! ## The second layer's stretch -/

theorem stageB : after (opsB (F := Ideal)) V (Proc.devRef .tc main_v29)
    = reluDense 50000 64 64 (agg (V (Proc.devRef .tc main_v14)) (V (Proc.devRef .tc main_arg7)) (V (Proc.devRef .tc main_arg8)))
        (V (Proc.devRef .tc main_arg3)) (V (Proc.devRef .tc main_arg4)) := by
  after_results_simp
  have eo : ∀ h1 h2 h3 (v : (⟨S50000x64, .f32⟩ : BufTy).Contents (Elt Ideal)),
      (TRef.of (T := ⟨S50000x64, .f32⟩) main_v29 h1 h2 h3).toBuf v = v := fun _ _ _ _ => rfl
  have ei : ∀ h1 h2 h3 (v : main_v28.ty.Contents (Elt Ideal)),
      (TRef.of (T := ⟨S50000x64, .f32⟩) main_v28 h1 h2 h3).ofBuf v = v := fun _ _ _ _ => rfl
  rw [eo, ei]
  simp only [ofBuf_toBuf]
  exact reluDense_host (A := 50000) (K := 64) (N := 64) _ _ _ bcast_S64_S1x64_1 bcast_S1x64_S50000x64_0_1 bcast_S_S50000x64

theorem keptB5 : after (opsB (F := Ideal)) V (Proc.devRef .tc main_arg5) = V (Proc.devRef .tc main_arg5) := by after_results_simp <;> rfl
theorem keptB6 : after (opsB (F := Ideal)) V (Proc.devRef .tc main_arg6) = V (Proc.devRef .tc main_arg6) := by after_results_simp <;> rfl
theorem keptB7 : after (opsB (F := Ideal)) V (Proc.devRef .tc main_arg7) = V (Proc.devRef .tc main_arg7) := by after_results_simp <;> rfl
theorem keptB8 : after (opsB (F := Ideal)) V (Proc.devRef .tc main_arg8) = V (Proc.devRef .tc main_arg8) := by after_results_simp <;> rfl

/-! ## The last layer's stretch -/

theorem stageC : after (opsC (F := Ideal)) V (Proc.devRef .tc main_v44)
    = lsmDense 50000 64 32 (agg (V (Proc.devRef .tc main_v29)) (V (Proc.devRef .tc main_arg7)) (V (Proc.devRef .tc main_arg8)))
        (V (Proc.devRef .tc main_arg5)) (V (Proc.devRef .tc main_arg6)) := by
  after_results_simp
  have eo : ∀ h1 h2 h3 (v : (⟨S50000x32, .f32⟩ : BufTy).Contents (Elt Ideal)),
      (TRef.of (T := ⟨S50000x32, .f32⟩) main_v44 h1 h2 h3).toBuf v = v := fun _ _ _ _ => rfl
  have ei : ∀ h1 h2 h3 (v : main_v43.ty.Contents (Elt Ideal)),
      (TRef.of (T := ⟨S50000x32, .f32⟩) main_v43 h1 h2 h3).ofBuf v = v := fun _ _ _ _ => rfl
  simp only [eo, ei, ofBuf_toBuf]
  exact lsmDense_host (A := 50000) (K := 64) (N := 32) _ _ _ _ bcast_S32_S1x32_1 bcast_S1x32_S50000x32_0_1 rfl
    reducesTo_S50000x32_S50000_d1 (by decide) h_S_ bcast_S_S50000 bcast_S50000_S50000x1_0 bcast_S50000x1_S50000x32_0_1

/-! ## The line -/

/-- From any contents, the result buffer ends at the network function of the argument buffers. -/
theorem result : after (Cert.ReferenceIdeal.ValueP.ops (F := Ideal)) V (Proc.devRef .tc main_v44)
    = network (V (Proc.devRef .tc main_arg0)) (V (Proc.devRef .tc main_arg1)) (V (Proc.devRef .tc main_arg2))
        (V (Proc.devRef .tc main_arg3)) (V (Proc.devRef .tc main_arg4)) (V (Proc.devRef .tc main_arg5))
        (V (Proc.devRef .tc main_arg6)) (V (Proc.devRef .tc main_arg7)) (V (Proc.devRef .tc main_arg8)) := by
  rw [ops_split, StableHlo.after_append, StableHlo.after_append]
  rw [stageC (after opsB (after opsA V)), stageB (after opsA V), stageA V]
  rw [keptB5 (after opsA V), keptB6 (after opsA V), keptB7 (after opsA V), keptB8 (after opsA V)]
  rw [keptA3 V, keptA4 V, keptA5 V, keptA6 V, keptA7 V, keptA8 V]
  rfl

end Cert.ReferenceIdeal.Stages

end
-- ==== Proof.lean ====
/-
  The proof of `Cert.Claim`: a three-layer graph network computed by three Pallas kernels among host operations
  (Kernel, and its idealization KernelIdeal) against the same network written in jnp (ReferenceIdeal).

  Per layer both programs sum the neighbours' rows into each node with the same host gather and scatter-add, and then
  apply  relu (x w + b)  (twice) or, in the last layer, the log-softmax of the rows of  x w + b.  At the ideal values
  the kernel's narrowing of its operands to bf16 is the identity, its matrix product into a zero splat is the host's
  dot_general, its lane reductions are the host's reduces (0 + s = s, and the host's one more maximum against -inf is
  the identity), and its log and exp are the host's.  A kernel treats 5000 rows at a point, the reference all 50000 at
  once; every entry of a layer depends on one row of the layer's input, so the ten blocks a region writes back are the
  blocks of the layer of all rows.  Hence both programs end with ONE function of the nine arguments in the result
  buffer (`Cert.Network.network`), and no law is used that would need the inputs to be finite.

  The three frames are the generated frame certificates (the reference's: its run with the result dropped);
  `preserves` has no conjunct (the idealization rewrote nothing).
-/
import proofs.«159971_j35450660062089_1_alg».proof.Defs
import proofs.«159971_j35450660062089_1_alg».proof.Proof.Gen.Kernel
import proofs.«159971_j35450660062089_1_alg».proof.Proof.Gen.Kernel.Skeleton
import proofs.«159971_j35450660062089_1_alg».proof.Proof.Gen.Kernel.Launch
import proofs.«159971_j35450660062089_1_alg».proof.Proof.Gen.Kernel.Points
import proofs.«159971_j35450660062089_1_alg».proof.Proof.Gen.Kernel.Frame
import proofs.«159971_j35450660062089_1_alg».proof.Proof.Gen.KernelIdeal
import proofs.«159971_j35450660062089_1_alg».proof.Proof.Gen.KernelIdeal.Skeleton
import proofs.«159971_j35450660062089_1_alg».proof.Proof.Gen.KernelIdeal.Launch
import proofs.«159971_j35450660062089_1_alg».proof.Proof.Gen.KernelIdeal.Points
import proofs.«159971_j35450660062089_1_alg».proof.Proof.Gen.KernelIdeal.Frame
import proofs.«159971_j35450660062089_1_alg».proof.Proof.Gen.ReferenceIdeal
import proofs.«159971_j35450660062089_1_alg».proof.Proof.Gen.Pre_finite_inputs
import proofs.«159971_j35450660062089_1_alg».proof.Proof.KernelRun
import proofs.«159971_j35450660062089_1_alg».proof.Proof.KernelValue
import proofs.«159971_j35450660062089_1_alg».proof.Proof.RefRun
import proofs.«159971_j35450660062089_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both idealized programs end with the network function of the arguments in the result buffer. -/
theorem algebraic : Cert.algebraic_KernelIdeal_ReferenceIdeal := by
  intro m ρ m' ρ' _ hagree
  refine ⟨fun c => Cert.Network.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Fold.result m ρ c), (h c).2⟩)
      (Cert.KernelIdeal.Named.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8⟩ := hagree c
    rw [Cert.ReferenceIdeal.Stages.result]
    show Cert.Network.network
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8)) = _
    rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
